-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x1024 : Shape := ⟨3, ![8192, 1, 1024]⟩
abbrev S2048x1024 : Shape := ⟨2, ![2048, 1024]⟩
abbrev S2048x1 : Shape := ⟨2, ![2048, 1]⟩
abbrev S1024x1024 : Shape := ⟨2, ![1024, 1024]⟩
abbrev S1024 : Shape := ⟨1, ![1024]⟩
abbrev S_ : Shape := ⟨0, ![]⟩

class Facts : Prop where
  bcast_S_S8192x1x1024 : S_.BroadcastsInDim S8192x1x1024 (![] : Fin 0 → Fin S8192x1x1024.rank)
  reducesTo_S8192x1x1024_S_d0_1_2 : S8192x1x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048x1 : S_.BroadcastsInDim S2048x1 (![] : Fin 0 → Fin S2048x1.rank)
  reducesTo_S2048x1_S_d0_1 : S2048x1.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x1024 .f32) (main_arg5 : FVec F S1024x1024 .f32) (main_arg6 : FVec F S1024 .f32) (main_arg7 : FVec F S1024 .f32) (main_arg8 : FVec F S1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S8192x1x1024 .f32) (main_arg1 : FVec F S2048x1024 .f32) (main_arg2 : FVec F S2048x1 .f32) (main_arg3 : FVec F S1024x1024 .f32) (main_arg4 : FVec F S1024x1024 .f32) (main_arg5 : FVec F S1024x1024 .f32) (main_arg6 : FVec F S1024 .f32) (main_arg7 : FVec F S1024 .f32) (main_arg8 : FVec F S1024 .f32) (main_arg9 : FVec F S1024 .f32) : IVec S_ 1 :=
  let main_v0 : FVec F S8192x1x1024 .f32 := Host.absf main_arg0
  let main_cst : FVec F S_ .f32 := constant S_ .f32 0x7F800000#32
  let main_v1 : FVec F S8192x1x1024 .f32 := broadcastInDim S8192x1x1024 ![] bcast_S_S8192x1x1024 main_cst
  let main_v2 : IVec S8192x1x1024 1 := cmpf .olt main_v0 main_v1
  let main_c : IVec S_ 1 := constantI S_ 1 1#1
  let main_v3 : IVec S_ 1 := (fun x v => Host.reduce IntOp.andi x v reducesTo_S8192x1x1024_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Kernel.lean ====
abbrev S8192x1x1024 : Shape := ⟨3, ![8192, 1, 1024]⟩
abbrev S2048x1024 : Shape := ⟨2, ![2048, 1024]⟩
abbrev S2048x1 : Shape := ⟨2, ![2048, 1]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S256x1024 : Shape := ⟨2, ![256, 1024]⟩
abbrev S256x1 : Shape := ⟨2, ![256, 1]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 25
  | .vmem => 21
  | .smem => 0
  | _ => 0

abbrev bufTy : (tb : Table) → Fin (tcTables nBuf tb) → BufTy
  | .hbm, ⟨0, _⟩ => ⟨S8192x1x1024, .f32⟩
  | .hbm, ⟨1, _⟩ => ⟨S2048x1024, .f32⟩
  | .hbm, ⟨2, _⟩ => ⟨S2048x1, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S8192x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S2048x1024, .bf16⟩
  | .hbm, ⟨22, _⟩ => ⟨S2048x1024, .bf16⟩
  | .hbm, ⟨23, _⟩ => ⟨S8192x1024, .f32⟩
  | .hbm, ⟨24, _⟩ => ⟨S8192x1x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1, .f32⟩
  | .local _ .vmem, ⟨4, _⟩ => ⟨S256x1, .f32⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S2048x1024, .bf16⟩
  | .local _ .vmem, ⟨15, _⟩ => ⟨S2048x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S8192x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S8192x1x1024_S8192x1024 : S8192x1x1024.ShapeCasts S8192x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S256x1024_S256x1024_0_0 : (Rect.unit (s := S256x1024) ![0, 0] S256x1024.size inb_S256x1024_S256x1024_0_0).PackedRows (EltTy.packing .bf16)
  inb_S256x1_S256x1_0_0 : ∀ a, (![0, 0] : Fin 2 → Nat) a + S256x1.size a ≤ S256x1.size a
  h_S256x1 : 0 < S256x1.numel
  broadcasts_S256x1_S256x1024 : S256x1.Broadcasts S256x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S512x2048_S512 : S512x2048.Reduces [1] S512
  shapeCasts_S512_S512x1 : S512.ShapeCasts S512x1
  broadcasts_S512x1_S512x2048 : S512x1.Broadcasts S512x2048
  reduces_S512x1024_S512 : S512x1024.Reduces [1] S512
  broadcasts_S512x1_S512x1024 : S512x1.Broadcasts S512x1024
  bcast_S8192x1024_S8192x1x1024_0_2 : S8192x1024.BroadcastsInDim S8192x1x1024 (![0, 2] : Fin 2 → Fin S8192x1x1024.rank)
  dot_S256x1024_S1024x1024_S256x1024_1_0_0_1_n_n_wf : DotDims.WF S256x1024 S1024x1024 S256x1024 [1] [0] [0] [1] [] []
  dot_S512x1024_S1024x1024_S512x1024_1_0_0_1_n_n_wf : DotDims.WF S512x1024 S1024x1024 S512x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x1024.size a
  hwx0_3 : ∀ i : grid0.Coords, EltTy.bits .bf16 = 32 ∨ (Rect.block (s := S2048x1024) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x1024.size a
  hwx0_4 : ∀ i : grid0.Coords, EltTy.bits .bf16 = 32 ∨ (Rect.block (s := S2048x1024) S256x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S2048x1024.size a
  hwx1_4 : ∀ i : grid1.Coords, EltTy.bits .bf16 = 32 ∨ (Rect.block (s := S2048x1024) S2048x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x1024.size a ≤ S2048x1024.size a
  hwx1_5 : ∀ i : grid1.Coords, EltTy.bits .bf16 = 32 ∨ (Rect.block (s := S2048x1024) S2048x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x1024.size a
  hwx1_8 : ∀ i : grid1.Coords, EltTy.bits .f32 = 32 ∨ (Rect.block (s := S1x1024) S1x1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x1024.size a ≤ S8192x1024.size a
  hwx1_9 : ∀ i : grid1.Coords, EltTy.bits .f32 = 32 ∨ (Rect.block (s := S8192x1024) S512x1024.size (cc1_transform_9 i) (hinb1_9 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11_0) S2048x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11_1) S2048x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10) S1x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12) S512x1024.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S8192x1x1024 : Shape := ⟨3, ![8192, 1, 1024]⟩
abbrev S2048x1024 : Shape := ⟨2, ![2048, 1024]⟩
abbrev S2048x1 : Shape := ⟨2, ![2048, 1]⟩
abbrev S1024x1024 : Shape := ⟨2, ![1024, 1024]⟩
abbrev S1024 : Shape := ⟨1, ![1024]⟩
abbrev S8192x1024 : Shape := ⟨2, ![8192, 1024]⟩
abbrev S1024x2048 : Shape := ⟨2, ![1024, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8192x1x1024, .f32⟩
  | .hbm, ⟨1, _⟩ => ⟨S2048x1024, .f32⟩
  | .hbm, ⟨2, _⟩ => ⟨S2048x1, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S8192x1024, .f32⟩
  | .hbm, ⟨11, _⟩ => ⟨S1024x1024, .f32⟩
  | .hbm, ⟨12, _⟩ => ⟨S8192x1024, .f32⟩
  | .hbm, ⟨13, _⟩ => ⟨S1024x1024, .f32⟩
  | .hbm, ⟨14, _⟩ => ⟨S2048x1024, .f32⟩
  | .hbm, ⟨15, _⟩ => ⟨S1024x2048, .f32⟩
  | .hbm, ⟨16, _⟩ => ⟨S8192x2048, .f32⟩
  | .hbm, ⟨17, _⟩ => ⟨S_, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S2048x1024, .f32⟩
  | .hbm, ⟨36, _⟩ => ⟨S2048x1024, .f32⟩
  | .hbm, ⟨37, _⟩ => ⟨S8192x1024, .f32⟩
  | .hbm, ⟨38, _⟩ => ⟨S1024x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1024, .f32⟩
  | .hbm, ⟨44, _⟩ => ⟨S1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S8192x1, .f32⟩
  | .hbm, ⟨82, _⟩ => ⟨S8192x1024, .f32⟩
  | .hbm, ⟨83, _⟩ => ⟨S8192x1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S1x1024, .f32⟩
  | .hbm, ⟨88, _⟩ => ⟨S8192x1024, .f32⟩
  | .hbm, ⟨89, _⟩ => ⟨S8192x1024, .f32⟩
  | .hbm, ⟨90, _⟩ => ⟨S8192x1x1024, .f32⟩
  | _, _ => ⟨S8192x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]

class Facts₀ : Prop where
  shapeCasts_S8192x1x1024_S8192x1024 : S8192x1x1024.ShapeCasts S8192x1024
  transposes_S1024x1024_S1024x1024_1_0 : S1024x1024.Transposes [1, 0] S1024x1024
  transposes_S2048x1024_S1024x2048_1_0 : S2048x1024.Transposes [1, 0] S1024x2048
  bcast_S_S8192x2048 : S_.BroadcastsInDim S8192x2048 (![] : Fin 0 → Fin S8192x2048.rank)
  reducesTo_S8192x2048_S8192_d1 : S8192x2048.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  bcast_S2048x1_S2048x1024_0_1 : S2048x1.BroadcastsInDim S2048x1024 (![0, 1] : Fin 2 → Fin S2048x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S1024 : S_.BroadcastsInDim S1024 (![] : Fin 0 → Fin S1024.rank)
  reducesTo_S8192x1024_S8192_d1 : S8192x1024.ReducesTo [1] S8192
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S8192x1024_S8192x1x1024_0_2 : S8192x1024.BroadcastsInDim S8192x1x1024 (![0, 2] : Fin 2 → Fin S8192x1x1024.rank)
  dot_S8192x1024_S1024x1024_S8192x1024_1_0_0_1_n_n_wf : DotDims.WF S8192x1024 S1024x1024 S8192x1024 [1] [0] [0] [1] [] []
  dot_S2048x1024_S1024x1024_S2048x1024_1_0_0_1_n_n_wf : DotDims.WF S2048x1024 S1024x1024 S2048x1024 [1] [0] [0] [1] [] []
  dot_S8192x1024_S1024x2048_S8192x2048_1_0_0_1_n_n_wf : DotDims.WF S8192x1024 S1024x2048 S8192x2048 [1] [0] [0] [1] [] []
  dot_S8192x2048_S2048x1024_S8192x1024_1_0_0_1_n_n_wf : DotDims.WF S8192x2048 S2048x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.Spec.lean ====
/-
  One output row of the gated attention layer as ONE function of that row of joint features and of the parameter
  arrays, on the extended reals.

  For a feature row x (1024 entries): the query q = x W_qᵀ; the keys k = conf W_kᵀ (one row per confounder); the
  score of confounder n is <q, k n>, scaled; the attention weight is the softmax of the scores over the 2048
  confounders, taken stably (subtract the row maximum, exponentiate, divide by the sum); the attended value is
  g = Σ n, attention n · (conf n · prior n); the augmented feature is x aug_Wᵀ + aug_b; the two are mixed entry by entry
  with the gate w = logistic(balance), (1 − w)·aug + w·g; and the mix is layer-normalised over its 1024 entries
  (mean and variance by division by the width, reciprocal square root of variance + ε, scale γ and shift β).

  Two steps are left as parameters, because the two programs spell them differently:
    scale : how a raw score becomes a scaled score   (a product with 1/32, or a quotient by √1024),
    norm  : how an exponential and the row's sum of exponentials become an attention weight
            (the product with the reciprocal of the sum, or the quotient by the sum).
  The words both programs share (1, 1024, ε, −∞) stay bit patterns: the same pattern on both sides is never evaluated.
-/
import Idealize.ShloMosaic.PureOps.Ideal
import Idealize.ShloMosaic.Lib.ValueIdx

noncomputable section

namespace Cert.Attn

open Idealize.ShloMosaic

/-- The float word 1.0. -/
abbrev wOne : EReal := Ideal.ofBits .f32 0x3F800000#32
/-- The float word 1024.0, the layer's width. -/
abbrev wDim : EReal := Ideal.ofBits .f32 0x44800000#32
/-- The float word nearest 1e-5, the normalisation's ε. -/
abbrev wEps : EReal := Ideal.ofBits .f32 0x3727C5AC#32
/-- The float word −∞, where a row maximum starts. -/
abbrev wNegInf : EReal := Ideal.ofBits .f32 0xFF800000#32

/-- Entry d of x Wᵀ: the inner product of x with row d of W. -/
def proj {K N : ℕ} (x : Fin K → EReal) (w : Fin N → Fin K → EReal) (d : Fin N) : EReal :=
  ∑ e : Fin K, x e * w d e

/-- The keys: row n of conf W_kᵀ. -/
def kmat (conf : Fin 2048 → Fin 1024 → EReal) (wk : Fin 1024 → Fin 1024 → EReal) (n : Fin 2048) (d : Fin 1024) : EReal :=
  proj (conf n) wk d

/-- The values: conf scaled row by row by the prior. -/
def vmat (conf : Fin 2048 → Fin 1024 → EReal) (prior : Fin 2048 → EReal) (n : Fin 2048) (d : Fin 1024) : EReal :=
  conf n d * prior n

/-- The raw score of confounder n: the inner product of the query with key n. -/
def rawScore (q : Fin 1024 → EReal) (km : Fin 2048 → Fin 1024 → EReal) (n : Fin 2048) : EReal :=
  ∑ d : Fin 1024, q d * km n d

/-- The maximum of a row of scores, from −∞. -/
def rowMax (s : Fin 2048 → EReal) : EReal := (Finset.univ : Finset (Fin 2048)).fold max wNegInf s

/-- The exponential of a score less the row maximum. -/
def expo (s : Fin 2048 → EReal) (n : Fin 2048) : EReal := Ideal.exp (s n - rowMax s)

/-- The row's sum of exponentials. -/
def denom (s : Fin 2048 → EReal) : EReal := ∑ j : Fin 2048, expo s j

/-- The mean of 1024 entries: their sum divided by the width word. -/
def mean (c : Fin 1024 → EReal) : EReal := Ideal.div (∑ d : Fin 1024, c d) wDim

/-- The variance of 1024 entries about their mean. -/
def variance (c : Fin 1024 → EReal) : EReal :=
  Ideal.div (∑ e : Fin 1024, (c e - mean c) * (c e - mean c)) wDim

/-- Layer normalisation of a row, entry d. -/
def layerNorm (c gam bet : Fin 1024 → EReal) (d : Fin 1024) : EReal :=
  (c d - mean c) * Ideal.rsqrt (variance c + wEps) * gam d + bet d

section
variable (scale : EReal → EReal) (norm : EReal → EReal → EReal)

/-- The scaled scores of a feature row. -/
def scores (x : Fin 1024 → EReal) (wq : Fin 1024 → Fin 1024 → EReal) (km : Fin 2048 → Fin 1024 → EReal)
    (n : Fin 2048) : EReal :=
  scale (rawScore (proj x wq) km n)

/-- The attention weight of confounder n in a row of scaled scores. -/
def attn (s : Fin 2048 → EReal) (n : Fin 2048) : EReal := norm (expo s n) (denom s)

/-- The attended value, entry d. -/
def attended (s : Fin 2048 → EReal) (vm : Fin 2048 → Fin 1024 → EReal) (d : Fin 1024) : EReal :=
  ∑ n : Fin 2048, attn norm s n * vm n d

/-- The gated mix of the augmented feature and the attended value, entry d. -/
def mix (x : Fin 1024 → EReal) (wq aw : Fin 1024 → Fin 1024 → EReal) (ab : Fin 1024 → EReal)
    (km vm : Fin 2048 → Fin 1024 → EReal) (bal : Fin 1024 → EReal) (d : Fin 1024) : EReal :=
  (wOne - Ideal.logistic (bal d)) * (proj x aw d + ab d)
    + Ideal.logistic (bal d) * attended norm (scores scale x wq km) vm d

/-- One output row, entry d. -/
def coreRow (x : Fin 1024 → EReal) (wq aw : Fin 1024 → Fin 1024 → EReal) (ab : Fin 1024 → EReal)
    (km vm : Fin 2048 → Fin 1024 → EReal) (bal gam bet : Fin 1024 → EReal) (d : Fin 1024) : EReal :=
  layerNorm (mix scale norm x wq aw ab km vm bal) gam bet d

end

/-- The kernel's scaling: the product with the word 0.03125. -/
def scaleK (s : EReal) : EReal := s * Ideal.ofBits .f32 0x3D000000#32
/-- The reference's scaling: the quotient by the square root of the width word. -/
def scaleR (s : EReal) : EReal := Ideal.div s (Ideal.sqrt wDim)
/-- The kernel's normalisation: the product with the reciprocal of the sum. -/
def normK (p l : EReal) : EReal := p * Ideal.div wOne l
/-- The reference's normalisation: the quotient by the sum. -/
def normR (p l : EReal) : EReal := Ideal.div p l

/-- The whole result array [8192, 1, 1024] as one function of the ten argument arrays: row b of the result is the
    output row of row b of the joint features. -/
def result (scale : EReal → EReal) (norm : EReal → EReal → EReal)
    (a0 : (⟨3, ![8192, 1, 1024]⟩ : Shape).Idx → EReal) (a1 : (⟨2, ![2048, 1024]⟩ : Shape).Idx → EReal)
    (a2 : (⟨2, ![2048, 1]⟩ : Shape).Idx → EReal) (a3 a4 a5 : (⟨2, ![1024, 1024]⟩ : Shape).Idx → EReal)
    (a6 a7 a8 a9 : (⟨1, ![1024]⟩ : Shape).Idx → EReal) (b : Fin 8192) (d : Fin 1024) : EReal :=
  coreRow scale norm (fun e => a0 (ValueIdx.ix3 b (0 : Fin 1) e)) (fun r e => a3 (ValueIdx.ix2 r e))
    (fun r e => a5 (ValueIdx.ix2 r e)) (fun r => a6 (ValueIdx.ix1 r))
    (kmat (fun n e => a1 (ValueIdx.ix2 n e)) (fun r e => a4 (ValueIdx.ix2 r e)))
    (vmat (fun n e => a1 (ValueIdx.ix2 n e)) (fun n => a2 (ValueIdx.ix2 n (0 : Fin 1))))
    (fun r => a7 (ValueIdx.ix1 r)) (fun r => a8 (ValueIdx.ix1 r)) (fun r => a9 (ValueIdx.ix1 r)) d

end Cert.Attn

end
-- ==== Proof.Consts.lean ====
/-
  The five float words whose values the proof needs, as the extended reals they denote: 1.0, the width 1024.0, the
  score scale 0.03125 = 1/32, −∞ and +∞.  Stated once here; no other module unfolds a bit pattern.
-/
import Idealize.ShloMosaic.PureOps.Ideal

noncomputable section

namespace Cert.Attn.Consts

open Idealize.ShloMosaic

/-- The word 1.0 denotes 1. -/
theorem ofBits_one : Ideal.ofBits .f32 0x3F800000#32 = 1 := by
  simp [Ideal.ofBits, Ideal.ieee, -EReal.coe_mul]; norm_num

/-- The word 1024.0 denotes the real 1024. -/
theorem ofBits_width : Ideal.ofBits .f32 0x44800000#32 = ((1024 : ℝ) : EReal) := by
  simp [Ideal.ofBits, Ideal.ieee, -EReal.coe_mul]; norm_num

/-- The word 0.03125 denotes the real 1/32. -/
theorem ofBits_inv32 : Ideal.ofBits .f32 0x3D000000#32 = ((1 / 32 : ℝ) : EReal) := by
  simp [Ideal.ofBits, Ideal.ieee, -EReal.coe_mul]; norm_num

/-- The word with sign bit set, all-ones exponent and zero fraction denotes −∞. -/
theorem ofBits_negInf : Ideal.ofBits .f32 0xFF800000#32 = ⊥ := by
  simp [Ideal.ofBits, Ideal.ieee]

/-- The word with sign bit clear, all-ones exponent and zero fraction denotes +∞. -/
theorem ofBits_posInf : Ideal.ofBits .f32 0x7F800000#32 = ⊤ := by
  simp [Ideal.ofBits, Ideal.ieee]

end Cert.Attn.Consts

end
-- ==== Proof.Algebra.lean ====
/-
  The two spellings of the layer agree where the scores are real numbers.

  Scaling: the quotient by √1024 = 32 is the product with 1/32 on EVERY extended real, the infinities included, so the
  two scalings are one function.  Normalising: p · (1 · l⁻¹) and p · l⁻¹ agree as soon as the sum l is not zero (at
  l = 0 the quotient's corner value differs from the product's).  The sum of exponentials is not zero when the row's
  scaled scores are real: the row maximum is then real (it is at least one score and, every score being below +∞, below
  +∞), each score less the maximum is real, its exponential a positive real, and a sum of non-negative terms is at least
  one of them.  The scores are real when the feature row, the query weights and the keys are: sums and products of reals.
-/
import proofs.«168509_j81982335746417_2_alg».proof.Proof.Spec
import proofs.«168509_j81982335746417_2_alg».proof.Proof.Consts

noncomputable section

namespace Cert.Attn

open Idealize.ShloMosaic

/-- An extended real that is a real number. -/
def IsReal (z : EReal) : Prop := ∃ r : ℝ, z = (r : EReal)

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem isReal_zero : IsReal 0 := ⟨0, EReal.coe_zero.symm⟩

/-- A finite sum of reals is real. -/
theorem isReal_sum {ι : Type} (s : Finset ι) (f : ι → EReal) (h : ∀ i ∈ s, IsReal (f i)) : IsReal (∑ i ∈ s, f i) :=
  Finset.sum_induction f IsReal (fun _ _ => IsReal.add) isReal_zero h

/-- The square root of the width word is 32. -/
theorem sqrt_width : Ideal.sqrt wDim = ((32 : ℝ) : EReal) := by
  show Ideal.sqrt (Ideal.ofBits .f32 0x44800000#32) = _
  rw [Consts.ofBits_width, Ideal.sqrt_coe, if_neg (by norm_num)]
  refine congrArg (fun r : ℝ => (r : EReal)) ?_
  rw [show (1024 : ℝ) = 32 ^ 2 by norm_num]
  exact Real.sqrt_sq (by norm_num)

/-- The two scalings are one function: the product with 1/32. -/
theorem scale_eq : scaleK = scaleR := by
  funext s
  unfold scaleK scaleR
  rw [sqrt_width, Ideal.div_coe (by norm_num : (32 : ℝ) ≠ 0), Consts.ofBits_inv32]

/-- The two normalisations agree off a zero sum. -/
theorem norm_eq (p l : EReal) (hl : l ≠ 0) : normK p l = normR p l := by
  unfold normK normR Ideal.div
  rw [if_neg hl, if_neg hl]
  show p * (Ideal.ofBits .f32 0x3F800000#32 * l⁻¹) = p * l⁻¹
  rw [Consts.ofBits_one, one_mul]

/-- An exponential is never negative. -/
theorem exp_nonneg (z : EReal) : 0 ≤ Ideal.exp z := by
  induction z using EReal.rec with
  | bot => rw [Ideal.exp_bot]
  | top => rw [Ideal.exp_top]; exact le_top
  | coe r => rw [Ideal.exp_coe]; exact_mod_cast (Real.exp_pos r).le

/-- The maximum of a row of real scores is real. -/
theorem rowMax_isReal (s : Fin 2048 → EReal) (hs : ∀ n, IsReal (s n)) : IsReal (rowMax s) := by
  unfold rowMax
  have hbot : (⊥ : EReal) < Finset.fold max wNegInf s Finset.univ := by
    obtain ⟨r, hr⟩ := hs 0
    refine lt_of_lt_of_le ?_ ((Finset.le_fold_max _).mpr (Or.inr ⟨0, Finset.mem_univ _, le_rfl⟩))
    rw [hr]; exact EReal.bot_lt_coe r
  have htop : Finset.fold max wNegInf s Finset.univ < ⊤ := by
    rw [Finset.fold_max_lt]
    refine ⟨?_, fun n _ => ?_⟩
    · show Ideal.ofBits .f32 0xFF800000#32 < ⊤
      rw [Consts.ofBits_negInf]; exact bot_lt_top
    · obtain ⟨r, hr⟩ := hs n; rw [hr]; exact EReal.coe_lt_top r
  exact ⟨_, (EReal.coe_toReal htop.ne hbot.ne').symm⟩

/-- The sum of exponentials of a row of real scores is not zero. -/
theorem denom_ne_zero (s : Fin 2048 → EReal) (hs : ∀ n, IsReal (s n)) : denom s ≠ 0 := by
  obtain ⟨μ, hμ⟩ := rowMax_isReal s hs
  obtain ⟨r, hr⟩ := hs 0
  have hpos : 0 < expo s 0 := by
    unfold expo
    rw [hμ, hr, ← EReal.coe_sub, Ideal.exp_coe]
    exact_mod_cast Real.exp_pos _
  have hle : expo s 0 ≤ denom s := by
    unfold denom
    exact Finset.single_le_sum (f := expo s) (fun n _ => by unfold expo; exact exp_nonneg _) (Finset.mem_univ 0)
  exact (lt_of_lt_of_le hpos hle).ne'

/-- The keys are real when the confounders and the key weights are. -/
theorem kmat_isReal (conf : Fin 2048 → Fin 1024 → EReal) (wk : Fin 1024 → Fin 1024 → EReal)
    (hc : ∀ n e, IsReal (conf n e)) (hw : ∀ r e, IsReal (wk r e)) (n : Fin 2048) (d : Fin 1024) :
    IsReal (kmat conf wk n d) := by
  unfold kmat proj
  exact isReal_sum _ _ fun e _ => (hc n e).mul (hw d e)

/-- The reference's scaled scores are real when the feature row, the query weights and the keys are. -/
theorem scoresR_isReal (x : Fin 1024 → EReal) (wq : Fin 1024 → Fin 1024 → EReal) (km : Fin 2048 → Fin 1024 → EReal)
    (hx : ∀ e, IsReal (x e)) (hwq : ∀ r e, IsReal (wq r e)) (hkm : ∀ n e, IsReal (km n e)) (n : Fin 2048) :
    IsReal (scores scaleR x wq km n) := by
  unfold scores scaleR rawScore proj
  rw [sqrt_width, Ideal.div_coe (by norm_num : (32 : ℝ) ≠ 0)]
  exact IsReal.mul (isReal_sum _ _ fun d _ => IsReal.mul (isReal_sum _ _ fun e _ => IsReal.mul (hx e) (hwq d e)) (hkm n d)) ⟨_, rfl⟩

/-- One output row, in the kernel's spelling and in the reference's, where the feature row, the query weights and the
    keys are real. -/
theorem coreRow_eq (x : Fin 1024 → EReal) (wq aw : Fin 1024 → Fin 1024 → EReal) (ab : Fin 1024 → EReal)
    (km vm : Fin 2048 → Fin 1024 → EReal) (bal gam bet : Fin 1024 → EReal)
    (hx : ∀ e, IsReal (x e)) (hwq : ∀ r e, IsReal (wq r e)) (hkm : ∀ n e, IsReal (km n e)) (d : Fin 1024) :
    coreRow scaleK normK x wq aw ab km vm bal gam bet d = coreRow scaleR normR x wq aw ab km vm bal gam bet d := by
  unfold coreRow
  refine congrArg (fun c => layerNorm c gam bet d) ?_
  funext d'
  unfold mix
  rw [scale_eq]
  refine congrArg (fun z => (wOne - Ideal.logistic (bal d')) * (proj x aw d' + ab d') + Ideal.logistic (bal d') * z) ?_
  unfold attended
  refine Finset.sum_congr rfl fun n _ => ?_
  unfold attn
  rw [norm_eq _ _ (denom_ne_zero _ (scoresR_isReal x wq km hx hwq hkm))]

/-- The whole result, in the two spellings, where the joint features, the confounders and the query and key weights
    are real. -/
theorem result_eq (a0 : (⟨3, ![8192, 1, 1024]⟩ : Shape).Idx → EReal) (a1 : (⟨2, ![2048, 1024]⟩ : Shape).Idx → EReal)
    (a2 : (⟨2, ![2048, 1]⟩ : Shape).Idx → EReal) (a3 a4 a5 : (⟨2, ![1024, 1024]⟩ : Shape).Idx → EReal)
    (a6 a7 a8 a9 : (⟨1, ![1024]⟩ : Shape).Idx → EReal)
    (h0 : ∀ i, IsReal (a0 i)) (h1 : ∀ i, IsReal (a1 i)) (h3 : ∀ i, IsReal (a3 i)) (h4 : ∀ i, IsReal (a4 i))
    (b : Fin 8192) (d : Fin 1024) :
    result scaleK normK a0 a1 a2 a3 a4 a5 a6 a7 a8 a9 b d = result scaleR normR a0 a1 a2 a3 a4 a5 a6 a7 a8 a9 b d := by
  unfold result
  exact coreRow_eq _ _ _ _ _ _ _ _ _ (fun e => h0 _) (fun r e => h3 _)
    (fun n e => kmat_isReal _ _ (fun n e => h1 _) (fun r e => h4 _) n e) d

end Cert.Attn

end
-- ==== Proof.RunNamed.lean ====
/-
  The idealized kernel's run with its result named.

  Every weakly fair execution of the kernel's @main from a memory with zero counters terminates without a fault, and in
  every final state the result buffer holds the contents of the last boundary of @main's segments at that buffer, the ten
  argument arrays being as launched.  The boundaries are: the launch memory; after the host operations that re-lay the
  arguments (the joint features as a matrix, the three weight matrices transposed, the four vectors as rows); after the
  first pallas_call (keys and values written); after the second (the normalised rows written); after the one host
  operation that gives the result its unit middle axis.
-/
import proofs.«168509_j81982335746417_2_alg».proof.Proof.Gen.KernelIdeal.Frame

set_option maxRecDepth 16384

noncomputable section

namespace Cert.Attn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result buffer at the last boundary's contents, the arguments unchanged. The
    segments' chain ends with every unscoped buffer at the last boundary's contents; read against the final state that
    gives the result buffer directly and each argument through the fold back to the launch memory. -/
theorem run_named : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v13 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.Attn.Run

end
-- ==== Proof.LibDenseLayer.lean ====
/-
  A dense layer read at one entry, at the ideal values (extended reals, every operation exact).

  `affine x W bias j` is entry `j` of `x W + bias` for one row `x`: the sum over the contracted coordinate of the products,
  plus the bias entry. `layer_apply`: a plain matrix product of an [R, K] block by a [K, N] matrix accumulated into a zero
  splat, plus a [1, N] bias row laid along every row, read at the entry (p, j), is `affine` of row `p` of the block; nothing
  of it depends on the other rows or on `R`. `relu_apply`: the maximum with a splat of the zero word, read at an entry, is
  `max · 0`. `shapeCast_a1b_ab_apply`: an [a, 1, b] array cast to [a, b] reads, at (i, j), the operand at (i, 0, j).
-/
import Idealize.ShloMosaic.Lib.ValueLayout
import Idealize.ShloMosaic.Lib.StackMember
import Idealize.ShloMosaic.PureOps.Ideal.Laws

noncomputable section

open scoped BigOperators

namespace Cert.Lib.DenseLayer

open Idealize.ShloMosaic Idealize.ShloMosaic.ValueIdx Idealize.ShloMosaic.StackMember

/-- One affine layer on one row: entry `j` of `x W + bias`. -/
def affine {K N : Nat} (x : Fin K → EReal) (w : FVec Ideal ⟨2, ![K, N]⟩ .f32) (bias : Fin N → EReal) (j : Fin N) : EReal :=
  ∑ k : Fin K, x k * w (ix2 k j) + bias j

/-- A matrix product into a zero accumulator, plus a bias row laid along every row, read at the entry (p, j): the
    affine layer of row `p`. The dimension numbers are any record equal to the plain ones (contract the left operand's
    axis 1 with the right operand's axis 0, no batch axis). -/
theorem layer_apply {R K N : Nat} (D : DotDims ⟨2, ![R, K]⟩ ⟨2, ![K, N]⟩ ⟨2, ![R, N]⟩) (hD : D = DotDims.plain R K N)
    (prec : Option ContractPrecision) (h : FVec Ideal ⟨2, ![R, K]⟩ .f32) (w : FVec Ideal ⟨2, ![K, N]⟩ .f32)
    (bias : FVec Ideal ⟨2, ![1, N]⟩ .f32) (hb : (⟨2, ![1, N]⟩ : Shape).Broadcasts ⟨2, ![R, N]⟩) (p : Fin R) (j : Fin N) :
    addf (matmul D prec h w (constant ⟨2, ![R, N]⟩ .f32 0x00000000#32)) (broadcastTo ⟨2, ![R, N]⟩ bias hb) (ix2 p j)
      = affine (fun k => h (ix2 p k)) w (fun j => bias (ix2 (0 : Fin 1) j)) j := by
  subst hD
  rw [addf_apply, broadcastTo_1b_ab_apply]
  unfold affine
  refine congrArg (· + bias (ix2 (0 : Fin 1) j)) ?_
  exact (congrFun (matmul_zero_eq_dotGeneral _ prec h w) _).trans (dotGeneral_plain_apply prec h w p j)

/-- The maximum with a splat zero, read at an entry. -/
theorem relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.DenseLayer

end
-- ==== Proof.HostSide.lean ====
/-
  What the kernel's buffers hold when the first pallas_call is entered, read at an index.

  Before the first call the host re-lays the arguments and nothing else: the joint features [8192, 1, 1024] as the
  matrix [8192, 1024] (entry (b, e) is the argument's (b, 0, e)); each weight matrix transposed and its format changed,
  the format change being the identity on the extended reals (entry (e, r) is the argument's (r, e)); each of the four
  vectors as a row [1, 1024] (entry (0, r) is the argument's r).  The confounders and the prior are not touched.
-/
import proofs.«168509_j81982335746417_2_alg».proof.Proof.Gen.KernelIdeal.Frame
import proofs.«168509_j81982335746417_2_alg».proof.Proof.LibDenseLayer
import Idealize.ShloMosaic.Lib.StableHlo.Run
import Idealize.ShloMosaic.Lib.ValueLayout
import Idealize.ShloMosaic.Lib.ValueIdx

set_option maxRecDepth 16384

noncomputable section

namespace Cert.Attn.Run

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The joint features as a matrix when the first call is entered. -/
theorem first_v0 (c : Dev nD) :
    (V1 m ρ c main_v0 : S8192x1024.Idx → EReal)
      = shapeCast S8192x1024 (m ((c : Thread nD τ).loc main_arg0)) shapeCasts_S8192x1x1024_S8192x1024 := by
  show StableHlo.after hostOps0 (W0 m ρ c) (Proc.devRef .tc main_v0) = _
  after_results
  all_goals rfl

/-- Its entry (b, e) is the argument's (b, 0, e). -/
theorem first_v0_apply (c : Dev nD) (b : Fin 8192) (e : Fin 1024) :
    V1 m ρ c main_v0 (ix2 b e) = m ((c : Thread nD τ).loc main_arg0) (ix3 b (0 : Fin 1) e) :=
  (congrFun (first_v0 m ρ c) (ix2 b e)).trans (Cert.Lib.DenseLayer.shapeCast_a1b_ab_apply _ _ b e)

/-- The query weights when the first call is entered: the argument transposed, its format changed. -/
theorem first_v2 (c : Dev nD) :
    (V1 m ρ c main_v2 : S1024x1024.Idx → EReal)
      = (truncf (F := Ideal) .bf16 (transpose S1024x1024 [1, 0] (m ((c : Thread nD τ).loc main_arg3) : FVec Ideal S1024x1024 .f32) transposes_S1024x1024_S1024x1024_1_0) bitsLt_bf16_f32 : FVec Ideal S1024x1024 .bf16) := by
  show StableHlo.after hostOps0 (W0 m ρ c) (Proc.devRef .tc main_v2) = _
  after_results
  all_goals rfl

/-- Its entry (e, r) is the argument's (r, e). -/
theorem first_v2_apply (c : Dev nD) (e r : Fin 1024) :
    V1 m ρ c main_v2 (ix2 e r) = m ((c : Thread nD τ).loc main_arg3) (ix2 r e) :=
  (congrFun (first_v2 m ρ c) (ix2 e r)).trans (transpose_ix2_apply _ _ e r)

/-- The key weights when the first call is entered: the argument transposed, its format changed. -/
theorem first_v4 (c : Dev nD) :
    (V1 m ρ c main_v4 : S1024x1024.Idx → EReal)
      = (truncf (F := Ideal) .bf16 (transpose S1024x1024 [1, 0] (m ((c : Thread nD τ).loc main_arg4) : FVec Ideal S1024x1024 .f32) transposes_S1024x1024_S1024x1024_1_0) bitsLt_bf16_f32 : FVec Ideal S1024x1024 .bf16) := by
  show StableHlo.after hostOps0 (W0 m ρ c) (Proc.devRef .tc main_v4) = _
  after_results
  all_goals rfl

/-- Its entry (e, r) is the argument's (r, e). -/
theorem first_v4_apply (c : Dev nD) (e r : Fin 1024) :
    V1 m ρ c main_v4 (ix2 e r) = m ((c : Thread nD τ).loc main_arg4) (ix2 r e) :=
  (congrFun (first_v4 m ρ c) (ix2 e r)).trans (transpose_ix2_apply _ _ e r)

/-- The augmentation weights when the first call is entered: the argument transposed, its format changed. -/
theorem first_v6 (c : Dev nD) :
    (V1 m ρ c main_v6 : S1024x1024.Idx → EReal)
      = (truncf (F := Ideal) .bf16 (transpose S1024x1024 [1, 0] (m ((c : Thread nD τ).loc main_arg5) : FVec Ideal S1024x1024 .f32) transposes_S1024x1024_S1024x1024_1_0) bitsLt_bf16_f32 : FVec Ideal S1024x1024 .bf16) := by
  show StableHlo.after hostOps0 (W0 m ρ c) (Proc.devRef .tc main_v6) = _
  after_results
  all_goals rfl

/-- Its entry (e, r) is the argument's (r, e). -/
theorem first_v6_apply (c : Dev nD) (e r : Fin 1024) :
    V1 m ρ c main_v6 (ix2 e r) = m ((c : Thread nD τ).loc main_arg5) (ix2 r e) :=
  (congrFun (first_v6 m ρ c) (ix2 e r)).trans (transpose_ix2_apply _ _ e r)

/-- The augmentation bias when the first call is entered: the argument vector as a row. -/
theorem first_v7 (c : Dev nD) :
    (V1 m ρ c main_v7 : S1x1024.Idx → EReal)
      = shapeCast S1x1024 (m ((c : Thread nD τ).loc main_arg6)) shapeCasts_S1024_S1x1024 := by
  show StableHlo.after hostOps0 (W0 m ρ c) (Proc.devRef .tc main_v7) = _
  after_results
  all_goals rfl

/-- Its entry (0, r) is the argument's r. -/
theorem first_v7_apply (c : Dev nD) (r : Fin 1024) :
    V1 m ρ c main_v7 (ix2 (0 : Fin 1) r) = m ((c : Thread nD τ).loc main_arg6) (ix1 r) :=
  (congrFun (first_v7 m ρ c) (ix2 (0 : Fin 1) r)).trans (shapeCast_a_1a_apply _ _ (0 : Fin 1) r)

/-- The balance when the first call is entered: the argument vector as a row. -/
theorem first_v8 (c : Dev nD) :
    (V1 m ρ c main_v8 : S1x1024.Idx → EReal)
      = shapeCast S1x1024 (m ((c : Thread nD τ).loc main_arg7)) shapeCasts_S1024_S1x1024 := by
  show StableHlo.after hostOps0 (W0 m ρ c) (Proc.devRef .tc main_v8) = _
  after_results
  all_goals rfl

/-- Its entry (0, r) is the argument's r. -/
theorem first_v8_apply (c : Dev nD) (r : Fin 1024) :
    V1 m ρ c main_v8 (ix2 (0 : Fin 1) r) = m ((c : Thread nD τ).loc main_arg7) (ix1 r) :=
  (congrFun (first_v8 m ρ c) (ix2 (0 : Fin 1) r)).trans (shapeCast_a_1a_apply _ _ (0 : Fin 1) r)

/-- The normalisation's scale when the first call is entered: the argument vector as a row. -/
theorem first_v9 (c : Dev nD) :
    (V1 m ρ c main_v9 : S1x1024.Idx → EReal)
      = shapeCast S1x1024 (m ((c : Thread nD τ).loc main_arg8)) shapeCasts_S1024_S1x1024 := by
  show StableHlo.after hostOps0 (W0 m ρ c) (Proc.devRef .tc main_v9) = _
  after_results
  all_goals rfl

/-- Its entry (0, r) is the argument's r. -/
theorem first_v9_apply (c : Dev nD) (r : Fin 1024) :
    V1 m ρ c main_v9 (ix2 (0 : Fin 1) r) = m ((c : Thread nD τ).loc main_arg8) (ix1 r) :=
  (congrFun (first_v9 m ρ c) (ix2 (0 : Fin 1) r)).trans (shapeCast_a_1a_apply _ _ (0 : Fin 1) r)

/-- The normalisation's shift when the first call is entered: the argument vector as a row. -/
theorem first_v10 (c : Dev nD) :
    (V1 m ρ c main_v10 : S1x1024.Idx → EReal)
      = shapeCast S1x1024 (m ((c : Thread nD τ).loc main_arg9)) shapeCasts_S1024_S1x1024 := by
  show StableHlo.after hostOps0 (W0 m ρ c) (Proc.devRef .tc main_v10) = _
  after_results
  all_goals rfl

/-- Its entry (0, r) is the argument's r. -/
theorem first_v10_apply (c : Dev nD) (r : Fin 1024) :
    V1 m ρ c main_v10 (ix2 (0 : Fin 1) r) = m ((c : Thread nD τ).loc main_arg9) (ix1 r) :=
  (congrFun (first_v10 m ρ c) (ix2 (0 : Fin 1) r)).trans (shapeCast_a_1a_apply _ _ (0 : Fin 1) r)

/-- The confounders are as launched when the first call is entered: no host operation writes them. -/
theorem first_arg1 (c : Dev nD) : V1 m ρ c main_arg1 = m ((c : Thread nD τ).loc main_arg1) :=
  (StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-- The prior is as launched when the first call is entered. -/
theorem first_arg2 (c : Dev nD) : V1 m ρ c main_arg2 = m ((c : Thread nD τ).loc main_arg2) :=
  (StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

end Cert.Attn.Run

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.Arrays.lean ====
/-
  From blocks to whole arrays, for both regions of the kernel.

  Region 0 runs over 8 grid points; point t reads rows 256 t … 256 t + 255 of the confounders and of the prior, and the
  whole of W_kᵀ, and writes the same rows of the keys (conf W_kᵀ) and of the values (conf scaled row by row by the prior).
  Region 1 runs over 16 grid points; point t reads rows 512 t … 512 t + 511 of the joint features and the whole of every
  parameter array, and writes the same rows of the result.

  Each point's block of an output is the restriction of ONE whole-array function to the point's rows, and the points'
  blocks cover the array (the block that covers row r is point r / 256, resp. r / 512); so after the region the array
  holds that function.
-/
import proofs.«168509_j81982335746417_2_alg».proof.Proof.Gen.KernelIdeal.Frame
import proofs.«168509_j81982335746417_2_alg».proof.Proof.Spec
import proofs.«168509_j81982335746417_2_alg».proof.Proof.LibSoftplus
import proofs.«168509_j81982335746417_2_alg».proof.Proof.LibColumnLayout
import Idealize.ShloMosaic.Lib.Pipeline.Value
import Idealize.ShloMosaic.Lib.ValueIdx

set_option maxRecDepth 16384

noncomputable section

open scoped BigOperators

namespace Cert.Attn.Arrays

open Cert.KernelIdeal Cert.KernelIdeal.Gen Idealize.ShloMosaic Idealize.ShloMosaic.ValueIdx
open Idealize.ShloMosaic.TcCoe Idealize.SL.Sem
open Idealize.ShloMosaic.Pipeline (Dat)

/-- The two zero offsets, however spelt, are the zero function. -/
theorem zero_offsets : (![0, 0] : Fin 2 → Nat) = fun _ => 0 := funext fun a => by fin_cases a <;> rfl

/-! ## The two payloads of region 0, at an index -/

/-- The keys' block: entry (p, d) is the inner product of row p of the confounders' block with column d of W_kᵀ. -/
theorem keys_block_apply (x0 : Vec Ideal S256x1024 .f32) (x1 : Vec Ideal S1024x1024 .bf16) (x2 : Vec Ideal S256x1 .f32)
    (p : Fin 256) (d : Fin 1024) :
    out0_3 (F := Ideal) x0 x1 x2 (ix2 p d) = ∑ e : Fin 1024, x0 (ix2 p e) * x1 (ix2 e d) := by
  unfold out0_3
  rw [View.canon_unit_zero zero_offsets]
  simp only [View.ld_unit_zero (S := S256x1024) zero_offsets, View.ld_unit_zero (S := S1024x1024) zero_offsets]
  unfold k0_pay1
  -- the two format changes are the identity on the extended reals; what is left is a plain product into zero
  refine (Cert.Lib.Softplus.matmul0_plain_apply dot_S256x1024_S1024x1024_S256x1024_1_0_0_1_n_n rfl none
    (truncf FTy.bf16 x0 bitsLt_bf16_f32) (shapeCast S1024x1024 x1 shapeCasts_S1024x1024_S1024x1024) p d).trans ?_
  refine Finset.sum_congr rfl fun e _ => ?_
  exact congrArg (fun w : Vec Ideal S1024x1024 .bf16 => x0 (ix2 p e) * w (ix2 e d))
    (shapeCast_self x1 shapeCasts_S1024x1024_S1024x1024)

/-- The values' block: entry (p, d) is the confounder entry scaled by the prior of its row. -/
theorem values_block_apply (x0 : Vec Ideal S256x1024 .f32) (x1 : Vec Ideal S1024x1024 .bf16) (x2 : Vec Ideal S256x1 .f32)
    (p : Fin 256) (d : Fin 1024) :
    out0_4 (F := Ideal) x0 x1 x2 (ix2 p d) = x0 (ix2 p d) * x2 (ix2 p (0 : Fin 1)) := by
  unfold out0_4
  rw [View.canon_unit_zero zero_offsets]
  simp only [View.ld_unit_zero (S := S256x1024) zero_offsets, View.ld_unit_zero (S := S256x1) zero_offsets]
  unfold k0_pay2
  exact congrArg (fun z => x0 (ix2 p d) * z)
    (PhysLoss.broadcastTo_a1_ab_apply x2 broadcasts_S256x1_S256x1024 p d)

/-! ## Region 0: the keys and the values after the region -/

section Region0
variable (V : (c : Dev nD) → (b : Ref sig .tc) → Buf (Elt Ideal) ((c : Thread nD τ).loc b))

/-- Where each window's block sits at grid point t, decided over the 8 points: the confounders, the prior, the keys
    and the values move down one block of rows per point; W_kᵀ is read whole. -/
theorem grid0_blocks : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of the confounders' block at point t is row 256 t + p of the confounders. -/
theorem conf_block_apply (c : Dev nD) (t : Fin cfg0.N) (p : Fin 256) (e : Fin 1024) (r : Fin 2048)
    (hr : r.val = 256 * t.val + p.val) :
    (iblk0 V c 0 t : Vec Ideal S256x1024 .f32) (ix2 p e) = (V c main_arg1 : S2048x1024.Idx → EReal) (ix2 r e) := by
  obtain ⟨e0, e1, -⟩ := grid0_blocks t
  show V c main_arg1 (((cfg0.win 0).blk t).view.emb (ix2 p e)) = V c main_arg1 (ix2 r e)
  refine congrArg (V c main_arg1) ?_
  funext a; apply Fin.ext
  match a with
  | ⟨0, _⟩ => show win0_0.index t (0 : Fin 2) * 256 + 1 * p.val = r.val; omega
  | ⟨1, _⟩ => show win0_0.index t (1 : Fin 2) * 1024 + 1 * e.val = e.val; omega

/-- The block of W_kᵀ at every point is W_kᵀ. -/
theorem wk_block_apply (c : Dev nD) (t : Fin cfg0.N) (e d : Fin 1024) :
    (iblk0 V c 1 t : Vec Ideal S1024x1024 .bf16) (ix2 e d) = (V c main_v4 : S1024x1024.Idx → EReal) (ix2 e d) := by
  obtain ⟨-, -, e0, e1, -⟩ := grid0_blocks t
  show V c main_v4 (((cfg0.win 1).blk t).view.emb (ix2 e d)) = V c main_v4 (ix2 e d)
  refine congrArg (V c main_v4) ?_
  funext a; apply Fin.ext
  match a with
  | ⟨0, _⟩ => show win0_1.index t (0 : Fin 2) * 1024 + 1 * e.val = e.val; omega
  | ⟨1, _⟩ => show win0_1.index t (1 : Fin 2) * 1024 + 1 * d.val = d.val; omega

/-- Row p of the prior's block at point t is row 256 t + p of the prior. -/
theorem prior_block_apply (c : Dev nD) (t : Fin cfg0.N) (p : Fin 256) (r : Fin 2048)
    (hr : r.val = 256 * t.val + p.val) :
    (iblk0 V c 2 t : Vec Ideal S256x1 .f32) (ix2 p (0 : Fin 1)) = (V c main_arg2 : S2048x1.Idx → EReal) (ix2 r (0 : Fin 1)) := by
  obtain ⟨-, -, -, -, e0, e1, -⟩ := grid0_blocks t
  show V c main_arg2 (((cfg0.win 2).blk t).view.emb (ix2 p (0 : Fin 1))) = V c main_arg2 (ix2 r (0 : Fin 1))
  refine congrArg (V c main_arg2) ?_
  funext a; apply Fin.ext
  match a with
  | ⟨0, _⟩ => show win0_2.index t (0 : Fin 2) * 256 + 1 * p.val = r.val; omega
  | ⟨1, _⟩ => show win0_2.index t (1 : Fin 2) * 1 + 1 * 0 = 0; omega

/-- The keys as one function of the confounders and of W_kᵀ: entry (n, d) is the inner product of row n of the
    confounders with column d of W_kᵀ. -/
abbrev keysOf (conf : S2048x1024.Idx → EReal) (wkT : S1024x1024.Idx → EReal) : S2048x1024.Idx → EReal := fun j =>
  ∑ e : Fin 1024, conf (ix2 ⟨(j 0).val, (j 0).isLt⟩ e) * wkT (ix2 e ⟨(j 1).val, (j 1).isLt⟩)

/-- The values as one function of the confounders and of the prior: entry (n, d) is the confounder entry scaled by
    the prior of row n. -/
abbrev valuesOf (conf : S2048x1024.Idx → EReal) (prior : S2048x1.Idx → EReal) : S2048x1024.Idx → EReal := fun j =>
  conf (ix2 ⟨(j 0).val, (j 0).isLt⟩ ⟨(j 1).val, (j 1).isLt⟩) * prior (ix2 ⟨(j 0).val, (j 0).isLt⟩ (0 : Fin 1))

/-- What point t writes back to the keys is its block of rows of `keysOf`. -/
theorem keys_flushed (c : Dev nD) (t : Fin cfg0.N) :
    (dat0 V c).flushed 3 t = ((cfg0.win 3).blk t).view.read (Elt Ideal) (keysOf (V c main_arg1) (V c main_v4)) := by
  show (cfg0.win 3).cut (grid0.coords t) ((dat0 V c).after 3 t) = _
  rw [after0_3]
  obtain ⟨-, -, -, -, -, -, e0, e1, -⟩ := grid0_blocks t
  refine funext fun (y : S256x1024.Idx) => ?_
  obtain ⟨p, d, rfl⟩ : ∃ (p : Fin 256) (d : Fin 1024), y = ix2 p d := ⟨y 0, y 1, eq_ix2 y⟩
  show out0_3 (F := Ideal) (iblk0 V c 0 t) (iblk0 V c 1 t) (iblk0 V c 2 t) (ix2 p d)
    = keysOf (V c main_arg1) (V c main_v4) (((cfg0.win 3).blk t).view.emb (ix2 p d))
  refine (keys_block_apply (iblk0 V c 0 t) (iblk0 V c 1 t) (iblk0 V c 2 t) p d).trans ?_
  refine Finset.sum_congr rfl fun e _ => ?_
  refine congrArg₂ (fun a b : EReal => a * b)
    (conf_block_apply V c t p e
      ⟨(((cfg0.win 3).blk t).view.emb (ix2 p d) 0).val, (((cfg0.win 3).blk t).view.emb (ix2 p d) 0).isLt⟩ ?_)
    ((wk_block_apply V c t e d).trans
      (congrArg (fun q : Fin 1024 => (V c main_v4 : S1024x1024.Idx → EReal) (ix2 e q)) (Fin.ext ?_)))
  · show win0_3.index t (0 : Fin 2) * 256 + 1 * p.val = 256 * t.val + p.val; omega
  · show d.val = win0_3.index t (1 : Fin 2) * 1024 + 1 * d.val; omega

/-- What point t writes back to the values is its block of rows of `valuesOf`. -/
theorem values_flushed (c : Dev nD) (t : Fin cfg0.N) :
    (dat0 V c).flushed 4 t = ((cfg0.win 4).blk t).view.read (Elt Ideal) (valuesOf (V c main_arg1) (V c main_arg2)) := by
  show (cfg0.win 4).cut (grid0.coords t) ((dat0 V c).after 4 t) = _
  rw [after0_4]
  obtain ⟨-, -, -, -, -, -, -, -, e0, e1⟩ := grid0_blocks t
  refine funext fun (y : S256x1024.Idx) => ?_
  obtain ⟨p, d, rfl⟩ : ∃ (p : Fin 256) (d : Fin 1024), y = ix2 p d := ⟨y 0, y 1, eq_ix2 y⟩
  show out0_4 (F := Ideal) (iblk0 V c 0 t) (iblk0 V c 1 t) (iblk0 V c 2 t) (ix2 p d)
    = valuesOf (V c main_arg1) (V c main_arg2) (((cfg0.win 4).blk t).view.emb (ix2 p d))
  refine (values_block_apply (iblk0 V c 0 t) (iblk0 V c 1 t) (iblk0 V c 2 t) p d).trans ?_
  refine congrArg₂ (fun a b : EReal => a * b)
    ((conf_block_apply V c t p d
      ⟨(((cfg0.win 4).blk t).view.emb (ix2 p d) 0).val, (((cfg0.win 4).blk t).view.emb (ix2 p d) 0).isLt⟩ ?_).trans
      (congrArg (fun q : Fin 1024 => (V c main_arg1 : S2048x1024.Idx → EReal)
        (ix2 ⟨(((cfg0.win 4).blk t).view.emb (ix2 p d) 0).val, (((cfg0.win 4).blk t).view.emb (ix2 p d) 0).isLt⟩ q)) (Fin.ext ?_)))
    (prior_block_apply V c t p
      ⟨(((cfg0.win 4).blk t).view.emb (ix2 p d) 0).val, (((cfg0.win 4).blk t).view.emb (ix2 p d) 0).isLt⟩ ?_)
  · show win0_4.index t (0 : Fin 2) * 256 + 1 * p.val = 256 * t.val + p.val; omega
  · show d.val = win0_4.index t (1 : Fin 2) * 1024 + 1 * d.val; omega
  · show win0_4.index t (0 : Fin 2) * 256 + 1 * p.val = 256 * t.val + p.val; omega

/-- An index of the keys is in point t's block iff each coordinate is in the block's range on its axis. -/
theorem keys_mem_block (t : Fin cfg0.N) (i : S2048x1024.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v11_0).slice (win0_3.rect t)).set ↔ _
  rw [View.set_slice_whole, Rect.mem_set_unit]
  exact Iff.rfl

/-- The same for the values. -/
theorem values_mem_block (t : Fin cfg0.N) (i : S2048x1024.Idx) :
    i ∈ ((cfg0.win 4).blk t).view.set ↔ ∀ a : Fin 2, win0_4.index t a * S256x1024.size a ≤ (i a).val
      ∧ (i a).val < win0_4.index t a * S256x1024.size a + S256x1024.size a := by
  show i ∈ ((View.whole main_v11_1).slice (win0_4.rect t)).set ↔ _
  rw [View.set_slice_whole, Rect.mem_set_unit]
  exact Iff.rfl

/-- Every row of the keys is written by some point: row r by point r / 256. -/
theorem keys_cover (i : S2048x1024.Idx) :
    ∃ t : Fin cfg0.N, (cfg0.win 3).flush t = true ∧ i ∈ ((cfg0.win 3).blk t).view.set := by
  have hi0 : (i 0).val < 2048 := (i 0).isLt
  have hi1 : (i 1).val < 1024 := (i 1).isLt
  have hN : cfg0.N = 8 := N_0
  obtain ⟨t, ht⟩ : ∃ t : Fin cfg0.N, t.val = (i 0).val / 256 := ⟨⟨(i 0).val / 256, by rw [hN]; omega⟩, rfl⟩
  obtain ⟨-, -, -, -, -, -, e0, e1, -⟩ := grid0_blocks t
  refine ⟨t, flush0_3 t, ?_⟩
  rw [keys_mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- Every row of the values is written by some point: row r by point r / 256. -/
theorem values_cover (i : S2048x1024.Idx) :
    ∃ t : Fin cfg0.N, (cfg0.win 4).flush t = true ∧ i ∈ ((cfg0.win 4).blk t).view.set := by
  have hi0 : (i 0).val < 2048 := (i 0).isLt
  have hi1 : (i 1).val < 1024 := (i 1).isLt
  have hN : cfg0.N = 8 := N_0
  obtain ⟨t, ht⟩ : ∃ t : Fin cfg0.N, t.val = (i 0).val / 256 := ⟨⟨(i 0).val / 256, by rw [hN]; omega⟩, rfl⟩
  obtain ⟨-, -, -, -, -, -, -, -, e0, e1⟩ := grid0_blocks t
  refine ⟨t, flush0_4 t, ?_⟩
  rw [values_mem_block]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1024 ≤ (i 1).val ∧ (i 1).val < win0_4.index t (1 : Fin 2) * 1024 + 1024; omega

/-- THE KEYS after region 0: conf W_kᵀ of the arrays the region found. -/
theorem keys_array (c : Dev nD) : (dat0 V c).arrAt 3 cfg0.N = keysOf (V c main_arg1) (V c main_v4) :=
  (dat0 V c).arrAt_eq_of_cover 3 (keysOf (V c main_arg1) (V c main_v4)) (fun t _ => keys_flushed V c t) keys_cover

/-- THE VALUES after region 0: the confounders scaled row by row by the prior, of the arrays the region found. -/
theorem values_array (c : Dev nD) : (dat0 V c).arrAt 4 cfg0.N = valuesOf (V c main_arg1) (V c main_arg2) :=
  (dat0 V c).arrAt_eq_of_cover 4 (valuesOf (V c main_arg1) (V c main_arg2)) (fun t _ => values_flushed V c t) values_cover

end Region0

/-! ## Region 1: the result after the region -/

section Region1
variable (V : (c : Dev nD) → (b : Ref sig .tc) → Buf (Elt Ideal) ((c : Thread nD τ).loc b))

/-- Where each window's block sits at grid point t, decided over the 16 points: the joint features and the result
    move down one block of rows per point; every parameter array is read whole. -/
theorem grid1_blocks : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

/-- Row p of the joint features' block at point t is row 512 t + p of the joint features. -/
theorem feat_block_apply (c : Dev nD) (t : Fin cfg1.N) (p : Fin 512) (e : Fin 1024) (r : Fin 8192)
    (hr : r.val = 512 * t.val + p.val) :
    (iblk1 V c 0 t : Vec Ideal S512x1024 .f32) (ix2 p e) = (V c main_v0 : S8192x1024.Idx → EReal) (ix2 r e) := by
  obtain ⟨e0, e1, -⟩ := grid1_blocks t
  show V c main_v0 (((cfg1.win 0).blk t).view.emb (ix2 p e)) = V c main_v0 (ix2 r e)
  refine congrArg (V c main_v0) ?_
  funext a; apply Fin.ext
  match a with
  | ⟨0, _⟩ => show win1_0.index t (0 : Fin 2) * 512 + 1 * p.val = r.val; omega
  | ⟨1, _⟩ => show win1_0.index t (1 : Fin 2) * 1024 + 1 * e.val = e.val; omega

/-- The block of W_qᵀ at every point is W_qᵀ. -/
theorem wq_block (c : Dev nD) (t : Fin cfg1.N) :
    (iblk1 V c 1 t : Vec Ideal S1024x1024 .bf16) = (V c main_v2 : S1024x1024.Idx → EReal) := by
  obtain ⟨-, -, e0, e1, -⟩ := grid1_blocks t
  refine funext fun (y : S1024x1024.Idx) => ?_
  show V c main_v2 (((cfg1.win 1).blk t).view.emb y) = V c main_v2 y
  refine congrArg (V c main_v2) ?_
  funext a; apply Fin.ext
  match a with
  | ⟨0, _⟩ => show win1_1.index t (0 : Fin 2) * 1024 + 1 * (y 0).val = (y 0).val; omega
  | ⟨1, _⟩ => show win1_1.index t (1 : Fin 2) * 1024 + 1 * (y 1).val = (y 1).val; omega

/-- The block of aug_Wᵀ at every point is aug_Wᵀ. -/
theorem augw_block (c : Dev nD) (t : Fin cfg1.N) :
    (iblk1 V c 2 t : Vec Ideal S1024x1024 .bf16) = (V c main_v6 : S1024x1024.Idx → EReal) := by
  obtain ⟨-, -, -, -, e0, e1, -⟩ := grid1_blocks t
  refine funext fun (y : S1024x1024.Idx) => ?_
  show V c main_v6 (((cfg1.win 2).blk t).view.emb y) = V c main_v6 y
  refine congrArg (V c main_v6) ?_
  funext a; apply Fin.ext
  match a with
  | ⟨0, _⟩ => show win1_2.index t (0 : Fin 2) * 1024 + 1 * (y 0).val = (y 0).val; omega
  | ⟨1, _⟩ => show win1_2.index t (1 : Fin 2) * 1024 + 1 * (y 1).val = (y 1).val; omega

/-- The block of the aug_b row at every point is the row. -/
theorem augb_block (c : Dev nD) (t : Fin cfg1.N) :
    (iblk1 V c 3 t : Vec Ideal S1x1024 .f32) = (V c main_v7 : S1x1024.Idx → EReal) := by
  obtain ⟨-, -, -, -, -, -, e0, e1, -⟩ := grid1_blocks t
  refine funext fun (y : S1x1024.Idx) => ?_
  show V c main_v7 (((cfg1.win 3).blk t).view.emb y) = V c main_v7 y
  refine congrArg (V c main_v7) ?_
  funext a; apply Fin.ext
  match a with
  | ⟨0, _⟩ => show win1_3.index t (0 : Fin 2) * 1 + 1 * (y 0).val = (y 0).val; omega
  | ⟨1, _⟩ => show win1_3.index t (1 : Fin 2) * 1024 + 1 * (y 1).val = (y 1).val; omega

/-- The block of the keys at every point is the keys. -/
theorem keys_block (c : Dev nD) (t : Fin cfg1.N) :
    (iblk1 V c 4 t : Vec Ideal S2048x1024 .bf16) = (V c main_v11_0 : S2048x1024.Idx → EReal) := by
  obtain ⟨-, -, -, -, -, -, -, -, e0, e1, -⟩ := grid1_blocks t
  refine funext fun (y : S2048x1024.Idx) => ?_
  show V c main_v11_0 (((cfg1.win 4).blk t).view.emb y) = V c main_v11_0 y
  refine congrArg (V c main_v11_0) ?_
  funext a; apply Fin.ext
  match a with
  | ⟨0, _⟩ => show win1_4.index t (0 : Fin 2) * 2048 + 1 * (y 0).val = (y 0).val; omega
  | ⟨1, _⟩ => show win1_4.index t (1 : Fin 2) * 1024 + 1 * (y 1).val = (y 1).val; omega

/-- The block of the values at every point is the values. -/
theorem values_block (c : Dev nD) (t : Fin cfg1.N) :
    (iblk1 V c 5 t : Vec Ideal S2048x1024 .bf16) = (V c main_v11_1 : S2048x1024.Idx → EReal) := by
  obtain ⟨-, -, -, -, -, -, -, -, -, -, e0, e1, -⟩ := grid1_blocks t
  refine funext fun (y : S2048x1024.Idx) => ?_
  show V c main_v11_1 (((cfg1.win 5).blk t).view.emb y) = V c main_v11_1 y
  refine congrArg (V c main_v11_1) ?_
  funext a; apply Fin.ext
  match a with
  | ⟨0, _⟩ => show win1_5.index t (0 : Fin 2) * 2048 + 1 * (y 0).val = (y 0).val; omega
  | ⟨1, _⟩ => show win1_5.index t (1 : Fin 2) * 1024 + 1 * (y 1).val = (y 1).val; omega

/-- The block of the balance row at every point is the row. -/
theorem balance_block (c : Dev nD) (t : Fin cfg1.N) :
    (iblk1 V c 6 t : Vec Ideal S1x1024 .f32) = (V c main_v8 : S1x1024.Idx → EReal) := by
  obtain ⟨-, -, -, -, -, -, -, -, -, -, -, -, e0, e1, -⟩ := grid1_blocks t
  refine funext fun (y : S1x1024.Idx) => ?_
  show V c main_v8 (((cfg1.win 6).blk t).view.emb y) = V c main_v8 y
  refine congrArg (V c main_v8) ?_
  funext a; apply Fin.ext
  match a with
  | ⟨0, _⟩ => show win1_6.index t (0 : Fin 2) * 1 + 1 * (y 0).val = (y 0).val; omega
  | ⟨1, _⟩ => show win1_6.index t (1 : Fin 2) * 1024 + 1 * (y 1).val = (y 1).val; omega

/-- The block of the γ row at every point is the row. -/
theorem gamma_block (c : Dev nD) (t : Fin cfg1.N) :
    (iblk1 V c 7 t : Vec Ideal S1x1024 .f32) = (V c main_v9 : S1x1024.Idx → EReal) := by
  obtain ⟨-, -, -, -, -, -, -, -, -, -, -, -, -, -, e0, e1, -⟩ := grid1_blocks t
  refine funext fun (y : S1x1024.Idx) => ?_
  show V c main_v9 (((cfg1.win 7).blk t).view.emb y) = V c main_v9 y
  refine congrArg (V c main_v9) ?_
  funext a; apply Fin.ext
  match a with
  | ⟨0, _⟩ => show win1_7.index t (0 : Fin 2) * 1 + 1 * (y 0).val = (y 0).val; omega
  | ⟨1, _⟩ => show win1_7.index t (1 : Fin 2) * 1024 + 1 * (y 1).val = (y 1).val; omega

/-- The block of the β row at every point is the row. -/
theorem beta_block (c : Dev nD) (t : Fin cfg1.N) :
    (iblk1 V c 8 t : Vec Ideal S1x1024 .f32) = (V c main_v10 : S1x1024.Idx → EReal) := by
  obtain ⟨-, -, -, -, -, -, -, -, -, -, -, -, -, -, -, -, e0, e1, -⟩ := grid1_blocks t
  refine funext fun (y : S1x1024.Idx) => ?_
  show V c main_v10 (((cfg1.win 8).blk t).view.emb y) = V c main_v10 y
  refine congrArg (V c main_v10) ?_
  funext a; apply Fin.ext
  match a with
  | ⟨0, _⟩ => show win1_8.index t (0 : Fin 2) * 1 + 1 * (y 0).val = (y 0).val; omega
  | ⟨1, _⟩ => show win1_8.index t (1 : Fin 2) * 1024 + 1 * (y 1).val = (y 1).val; omega

/-- The result as one function of the joint features and of the parameter arrays: row b is the output row of row b of
    the joint features. -/
abbrev resultOf (feat : S8192x1024.Idx → EReal) (wqT awT : S1024x1024.Idx → EReal) (ab : S1x1024.Idx → EReal)
    (keys vals : S2048x1024.Idx → EReal) (bal gam bet : S1x1024.Idx → EReal) : S8192x1024.Idx → EReal := fun j =>
  Cert.Attn.coreRow Cert.Attn.scaleK Cert.Attn.normK (fun e => feat (ix2 ⟨(j 0).val, (j 0).isLt⟩ e)) (fun r e => wqT (ix2 e r))
    (fun r e => awT (ix2 e r)) (fun r => ab (ix2 (0 : Fin 1) r)) (fun n e => keys (ix2 n e)) (fun n e => vals (ix2 n e))
    (fun r => bal (ix2 (0 : Fin 1) r)) (fun r => gam (ix2 (0 : Fin 1) r)) (fun r => bet (ix2 (0 : Fin 1) r)) ⟨(j 1).val, (j 1).isLt⟩

/-- One output row depends on its ten arguments only through their values. -/
theorem coreRow_congr {scale : EReal → EReal} {norm : EReal → EReal → EReal}
    {x x' : Fin 1024 → EReal} {wq wq' aw aw' : Fin 1024 → Fin 1024 → EReal} {ab ab' : Fin 1024 → EReal}
    {km km' vm vm' : Fin 2048 → Fin 1024 → EReal} {bal bal' gam gam' bet bet' : Fin 1024 → EReal} {d d' : Fin 1024}
    (h0 : x = x') (h1 : wq = wq') (h2 : aw = aw') (h3 : ab = ab') (h4 : km = km') (h5 : vm = vm')
    (h6 : bal = bal') (h7 : gam = gam') (h8 : bet = bet') (hd : d = d') :
    Cert.Attn.coreRow scale norm x wq aw ab km vm bal gam bet d
      = Cert.Attn.coreRow scale norm x' wq' aw' ab' km' vm' bal' gam' bet' d' := by
  subst h0 h1 h2 h3 h4 h5 h6 h7 h8 hd; rfl

section Flushed
variable (hbody : ∀ (x0 : Vec Ideal S512x1024 .f32) (x1 x2 : Vec Ideal S1024x1024 .bf16) (x3 : Vec Ideal S1x1024 .f32)
    (x4 x5 : Vec Ideal S2048x1024 .bf16) (x6 x7 x8 : Vec Ideal S1x1024 .f32) (p : Fin 512) (d : Fin 1024),
    out1_9 (F := Ideal) x0 x1 x2 x3 x4 x5 x6 x7 x8 (ix2 p d)
      = Cert.Attn.coreRow Cert.Attn.scaleK Cert.Attn.normK (fun e => x0 (ix2 p e)) (fun r e => x1 (ix2 e r))
    (fun r e => x2 (ix2 e r)) (fun r => x3 (ix2 (0 : Fin 1) r)) (fun n e => x4 (ix2 n e)) (fun n e => x5 (ix2 n e))
    (fun r => x6 (ix2 (0 : Fin 1) r)) (fun r => x7 (ix2 (0 : Fin 1) r)) (fun r => x8 (ix2 (0 : Fin 1) r)) d)
include hbody

/-- What point t writes back to the result is its block of rows of `resultOf`. -/
theorem result_flushed (c : Dev nD) (t : Fin cfg1.N) :
    (dat1 V c).flushed 9 t = ((cfg1.win 9).blk t).view.read (Elt Ideal) (resultOf (V c main_v0) (V c main_v2) (V c main_v6) (V c main_v7) (V c main_v11_0) (V c main_v11_1) (V c main_v8) (V c main_v9) (V c main_v10)) := by
  show (cfg1.win 9).cut (grid1.coords t) ((dat1 V c).after 9 t) = _
  rw [after1_9]
  obtain ⟨-, -, -, -, -, -, -, -, -, -, -, -, -, -, -, -, -, -, e0, e1⟩ := grid1_blocks t
  refine funext fun (y : S512x1024.Idx) => ?_
  obtain ⟨p, d, rfl⟩ : ∃ (p : Fin 512) (d : Fin 1024), y = ix2 p d := ⟨y 0, y 1, eq_ix2 y⟩
  show out1_9 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (ix2 p d)
    = resultOf (V c main_v0) (V c main_v2) (V c main_v6) (V c main_v7) (V c main_v11_0) (V c main_v11_1) (V c main_v8) (V c main_v9) (V c main_v10) (((cfg1.win 9).blk t).view.emb (ix2 p d))
  refine (hbody (iblk1 V c 0 t) (iblk1 V c 1 t) (iblk1 V c 2 t) (iblk1 V c 3 t) (iblk1 V c 4 t) (iblk1 V c 5 t) (iblk1 V c 6 t) (iblk1 V c 7 t) (iblk1 V c 8 t) p d).trans ?_
  refine coreRow_congr
    (funext fun e => feat_block_apply V c t p e ⟨(((cfg1.win 9).blk t).view.emb (ix2 p d) 0).val, (((cfg1.win 9).blk t).view.emb (ix2 p d) 0).isLt⟩ ?_)
    (funext fun r => funext fun e => congrFun (wq_block V c t) (ix2 e r))
    (funext fun r => funext fun e => congrFun (augw_block V c t) (ix2 e r))
    (funext fun r => congrFun (augb_block V c t) (ix2 (0 : Fin 1) r))
    (funext fun n => funext fun e => congrFun (keys_block V c t) (ix2 n e))
    (funext fun n => funext fun e => congrFun (values_block V c t) (ix2 n e))
    (funext fun r => congrFun (balance_block V c t) (ix2 (0 : Fin 1) r))
    (funext fun r => congrFun (gamma_block V c t) (ix2 (0 : Fin 1) r))
    (funext fun r => congrFun (beta_block V c t) (ix2 (0 : Fin 1) r))
    (Fin.ext ?_)
  · show win1_9.index t (0 : Fin 2) * 512 + 1 * p.val = 512 * t.val + p.val; omega
  · show d.val = win1_9.index t (1 : Fin 2) * 1024 + 1 * d.val; omega

end Flushed

/-- An index of the result is in point t's block iff each coordinate is in the block's range on its axis. -/
theorem result_mem_block (t : Fin cfg1.N) (i : S8192x1024.Idx) :
    i ∈ ((cfg1.win 9).blk t).view.set ↔ ∀ a : Fin 2, win1_9.index t a * S512x1024.size a ≤ (i a).val
      ∧ (i a).val < win1_9.index t a * S512x1024.size a + S512x1024.size a := by
  show i ∈ ((View.whole main_v12).slice (win1_9.rect t)).set ↔ _
  rw [View.set_slice_whole, Rect.mem_set_unit]
  exact Iff.rfl

/-- Every row of the result is written by some point: row r by point r / 512. -/
theorem result_cover (i : S8192x1024.Idx) :
    ∃ t : Fin cfg1.N, (cfg1.win 9).flush t = true ∧ i ∈ ((cfg1.win 9).blk t).view.set := by
  have hi0 : (i 0).val < 8192 := (i 0).isLt
  have hi1 : (i 1).val < 1024 := (i 1).isLt
  have hN : cfg1.N = 16 := N_1
  obtain ⟨t, ht⟩ : ∃ t : Fin cfg1.N, t.val = (i 0).val / 512 := ⟨⟨(i 0).val / 512, by rw [hN]; omega⟩, rfl⟩
  obtain ⟨-, -, -, -, -, -, -, -, -, -, -, -, -, -, -, -, -, -, e0, e1⟩ := grid1_blocks t
  refine ⟨t, flush1_9 t, ?_⟩
  rw [result_mem_block]
  intro a
  match a with
  | ⟨0, _⟩ => show win1_9.index t (0 : Fin 2) * 512 ≤ (i 0).val ∧ (i 0).val < win1_9.index t (0 : Fin 2) * 512 + 512; omega
  | ⟨1, _⟩ => show win1_9.index t (1 : Fin 2) * 1024 ≤ (i 1).val ∧ (i 1).val < win1_9.index t (1 : Fin 2) * 1024 + 1024; omega

/-- THE RESULT after region 1, given the body's reading at an index: row b is the output row of row b of the joint
    features, of the arrays the region found. -/
theorem result_array
    (hbody : ∀ (x0 : Vec Ideal S512x1024 .f32) (x1 x2 : Vec Ideal S1024x1024 .bf16) (x3 : Vec Ideal S1x1024 .f32)
      (x4 x5 : Vec Ideal S2048x1024 .bf16) (x6 x7 x8 : Vec Ideal S1x1024 .f32) (p : Fin 512) (d : Fin 1024),
      out1_9 (F := Ideal) x0 x1 x2 x3 x4 x5 x6 x7 x8 (ix2 p d)
        = Cert.Attn.coreRow Cert.Attn.scaleK Cert.Attn.normK (fun e => x0 (ix2 p e)) (fun r e => x1 (ix2 e r))
    (fun r e => x2 (ix2 e r)) (fun r => x3 (ix2 (0 : Fin 1) r)) (fun n e => x4 (ix2 n e)) (fun n e => x5 (ix2 n e))
    (fun r => x6 (ix2 (0 : Fin 1) r)) (fun r => x7 (ix2 (0 : Fin 1) r)) (fun r => x8 (ix2 (0 : Fin 1) r)) d)
    (c : Dev nD) :
    (dat1 V c).arrAt 9 cfg1.N = fun (j : S8192x1024.Idx) =>
      Cert.Attn.coreRow Cert.Attn.scaleK Cert.Attn.normK (fun e => V c main_v0 (ix2 ⟨(j 0).val, (j 0).isLt⟩ e)) (fun r e => V c main_v2 (ix2 e r))
    (fun r e => V c main_v6 (ix2 e r)) (fun r => V c main_v7 (ix2 (0 : Fin 1) r)) (fun n e => V c main_v11_0 (ix2 n e)) (fun n e => V c main_v11_1 (ix2 n e))
    (fun r => V c main_v8 (ix2 (0 : Fin 1) r)) (fun r => V c main_v9 (ix2 (0 : Fin 1) r)) (fun r => V c main_v10 (ix2 (0 : Fin 1) r)) ⟨(j 1).val, (j 1).isLt⟩ :=
  (dat1 V c).arrAt_eq_of_cover 9 (resultOf (V c main_v0) (V c main_v2) (V c main_v6) (V c main_v7) (V c main_v11_0) (V c main_v11_1) (V c main_v8) (V c main_v9) (V c main_v10))
    (fun t _ => result_flushed V hbody c t) result_cover

end Region1

end Cert.Attn.Arrays

end
-- ==== Proof.Body1.lean ====
/-
  The fused attention body read at one entry, on the extended reals.

  The body computes, for a block of 512 feature rows, the query x W_qᵀ, the scores against the 2048 keys scaled by
  the word 1/32, a stable row softmax written as the exponential times the reciprocal of the row's sum, the attended
  value, the augmented feature, the gated mix and its layer normalisation.  Each step is read here at explicit
  coordinates, bottom up, and the entry (p, d) of the stored block is shown to be entry d of the specification's
  output row for row p of the feature block.
-/
import proofs.«168509_j81982335746417_2_alg».proof.Proof.Gen.KernelIdeal.Frame
import proofs.«168509_j81982335746417_2_alg».proof.Proof.Spec
import proofs.«168509_j81982335746417_2_alg».proof.Proof.LibColumnLayout
import proofs.«168509_j81982335746417_2_alg».proof.Proof.LibSoftplus
import proofs.«168509_j81982335746417_2_alg».proof.Proof.LibDenseLayer
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Attn.Body1

open Cert.KernelIdeal Cert.KernelIdeal.Gen Idealize.ShloMosaic Idealize.ShloMosaic.ValueIdx

/-! ## Reductions along the second axis of a matrix -/

/-- In an [a, b] array reduced along its second axis, the reduced index p with coordinate j put back is (p, j). -/
theorem lift_cols {a b : ℕ} (h : (⟨2, ![a, b]⟩ : Shape).Reduces [1] (⟨1, ![a]⟩ : Shape)) (p : Fin a)
    (j : Fin ((⟨2, ![a, b]⟩ : Shape).size 1)) : h.lift (ix1 p) j = ix2 p (⟨j.val, j.isLt⟩ : Fin b) := by
  funext d; apply Fin.ext
  fin_cases d <;> rfl

/-- The sum of an [a, b] array along its second axis, at row p: the sum of the row's entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] (⟨1, ![a]⟩ : Shape) src acc h hφ hacc (ix1 p) = ∑ e : Fin b, src (ix2 p e) := by
  refine (Ideal.multiReduction_add_single src acc h hφ hacc (ix1 p)).trans ?_
  exact Finset.sum_congr rfl fun k _ => congrArg src (lift_cols h p k)

/-- The maximum of an [a, b] array along its second axis, at row p: the fold of max over the row's entries, from
    the accumulator's value. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (Ideal.ofBits φ acc) fun e => src (ix2 p e) := by
  refine (Ideal.multiReduction_maximumf_single src acc h hφ hacc (ix1 p)).trans ?_
  refine congrArg (fun f => Finset.fold max (Ideal.ofBits φ acc) f (Finset.univ : Finset (Fin b))) ?_
  funext j
  exact congrArg src (lift_cols h p j)

/-! ## The augmented feature and the gate -/

theorem dot1_plain : dot_S512x1024_S1024x1024_S512x1024_1_0_0_1_n_n = DotDims.plain 512 1024 1024 := rfl

/-- The augmented feature at (p, d): the projection of row p on column d of the weights, plus the bias entry. -/
theorem pay3_apply (v0 : Vec Ideal S512x1024 .f32) (v5 : Vec Ideal S1024x1024 .bf16) (v9 : Vec Ideal S1x1024 .f32)
    (p : Fin 512) (d : Fin 1024) :
    k1_pay3 (F := Ideal) v0 v5 v9 (ix2 p d)
      = Cert.Attn.proj (fun e => v0 (ix2 p e)) (fun r e => v5 (ix2 e r)) d + v9 (ix2 (0 : Fin 1) d) := by
  unfold k1_pay3 k1_pay2
  refine (congrArg₂ (· + ·) (Cert.Lib.Softplus.matmul0_plain_apply _ dot1_plain none _ _ p d)
    (broadcastTo_1b_ab_apply _ _ p d)).trans ?_
  simp only [shapeCast_self]
  rfl

/-- The gate at column d: the logistic of the balance entry. -/
theorem pay5_apply (v34 : Vec Ideal S1x1024 .f32) (d : Fin 1024) :
    k1_pay5 (F := Ideal) v34 (ix2 (0 : Fin 1) d) = Ideal.logistic (v34 (ix2 (0 : Fin 1) d)) := by
  unfold k1_pay5
  rw [shapeCast_self]
  rfl

/-! ## The gated mix and its layer normalisation -/

/-- The gated mix of two blocks by a gate row: (1 − gate) times the first plus gate times the second. -/
def mixV (v12 v33 : FVec Ideal S512x1024 .f32) (v36 : FVec Ideal S1x1024 .f32) : FVec Ideal S512x1024 .f32 :=
  addf (mulf (broadcastTo S512x1024 (subf (broadcast S1x1024 (FloatOps.ofBits (F := Ideal) .f32 0x3F800000#32)) v36)
      broadcasts_S1x1024_S512x1024) v12)
    (mulf (broadcastTo S512x1024 v36 broadcasts_S1x1024_S512x1024) v33)

theorem mixV_apply (v12 v33 : FVec Ideal S512x1024 .f32) (v36 : FVec Ideal S1x1024 .f32) (p : Fin 512) (e : Fin 1024) :
    mixV v12 v33 v36 (ix2 p e)
      = (wOne - v36 (ix2 (0 : Fin 1) e)) * v12 (ix2 p e) + v36 (ix2 (0 : Fin 1) e) * v33 (ix2 p e) := by
  unfold mixV
  rw [addf_apply, mulf_apply, mulf_apply, broadcastTo_1b_ab_apply, broadcastTo_1b_ab_apply]
  rfl

/-- The mean of each row of a block, as a column. -/
def meanV (c : FVec Ideal S512x1024 .f32) : FVec Ideal S512x1 .f32 :=
  divf (shapeCast S512x1 (multiReduction .add [1] S512 c 0x00000000#32 reduces_S512x1024_S512 (.inl rfl) rfl)
      shapeCasts_S512_S512x1)
    (broadcast S512x1 (FloatOps.ofBits (F := Ideal) .f32 0x44800000#32))

theorem meanV_apply (c : FVec Ideal S512x1024 .f32) (p : Fin 512) (u : Fin 1) :
    meanV c (ix2 p u) = Cert.Attn.mean fun e => c (ix2 p e) := by
  unfold meanV Cert.Attn.mean
  rw [divf_apply, broadcast_apply, PhysLoss.shapeCast_a_a1_apply]
  exact congrArg (fun s => Ideal.div s wDim) (rowSum_apply c _ _ _ _ p)

/-- Each entry of a block less its row's mean. -/
def centV (c : FVec Ideal S512x1024 .f32) : FVec Ideal S512x1024 .f32 :=
  subf c (broadcastTo S512x1024 (meanV c) broadcasts_S512x1_S512x1024)

theorem centV_apply (c : FVec Ideal S512x1024 .f32) (p : Fin 512) (e : Fin 1024) :
    centV c (ix2 p e) = c (ix2 p e) - Cert.Attn.mean fun e => c (ix2 p e) := by
  unfold centV
  rw [subf_apply, PhysLoss.broadcastTo_a1_ab_apply, meanV_apply]

/-- The variance of each row of a block, as a column. -/
def varV (c : FVec Ideal S512x1024 .f32) : FVec Ideal S512x1 .f32 :=
  divf (shapeCast S512x1 (multiReduction .add [1] S512 (mulf (centV c) (centV c)) 0x00000000#32 reduces_S512x1024_S512
      (.inl rfl) rfl) shapeCasts_S512_S512x1)
    (broadcast S512x1 (FloatOps.ofBits (F := Ideal) .f32 0x44800000#32))

theorem varV_apply (c : FVec Ideal S512x1024 .f32) (p : Fin 512) (u : Fin 1) :
    varV c (ix2 p u) = Cert.Attn.variance fun e => c (ix2 p e) := by
  unfold varV Cert.Attn.variance
  rw [divf_apply, broadcast_apply, PhysLoss.shapeCast_a_a1_apply]
  refine congrArg (fun s => Ideal.div s wDim) ((rowSum_apply _ _ _ _ _ p).trans ?_)
  exact Finset.sum_congr rfl fun e _ => by rw [mulf_apply, centV_apply]

/-- A block normalised row by row, then scaled and shifted column by column. -/
def normV (c : FVec Ideal S512x1024 .f32) (v62 v66 : Vec Ideal S1x1024 .f32) : FVec Ideal S512x1024 .f32 :=
  addf
    (mulf
      (mulf (centV c)
        (broadcastTo S512x1024
          (rsqrt (addf (varV c) (broadcast S512x1 (FloatOps.ofBits (F := Ideal) .f32 0x3727C5AC#32))))
          broadcasts_S512x1_S512x1024))
      (broadcastTo S512x1024 (shapeCast S1x1024 v62 shapeCasts_S1x1024_S1x1024) broadcasts_S1x1024_S512x1024))
    (broadcastTo S512x1024 (shapeCast S1x1024 v66 shapeCasts_S1x1024_S1x1024) broadcasts_S1x1024_S512x1024)

theorem normV_apply (c : FVec Ideal S512x1024 .f32) (v62 v66 : Vec Ideal S1x1024 .f32) (p : Fin 512) (d : Fin 1024) :
    normV c v62 v66 (ix2 p d)
      = Cert.Attn.layerNorm (fun e => c (ix2 p e)) (fun e => v62 (ix2 (0 : Fin 1) e))
          (fun e => v66 (ix2 (0 : Fin 1) e)) d := by
  unfold normV Cert.Attn.layerNorm
  rw [addf_apply, mulf_apply, mulf_apply, broadcastTo_1b_ab_apply, broadcastTo_1b_ab_apply,
    PhysLoss.broadcastTo_a1_ab_apply, shapeCast_self, shapeCast_self, centV_apply]
  show _ * Ideal.rsqrt (varV c (ix2 p (0 : Fin 1)) + wEps) * _ + _ = _
  rw [varV_apply]

/-- The body's last payload is the normalisation of the gated mix. -/
theorem pay1_eq (v12 v33 : FVec Ideal S512x1024 .f32) (v36 : FVec Ideal S1x1024 .f32) (v62 v66 : Vec Ideal S1x1024 .f32) :
    k1_pay1 (F := Ideal) v12 v33 v36 v62 v66 = normV (mixV v12 v33 v36) v62 v66 := rfl

theorem pay1_apply (v12 v33 : FVec Ideal S512x1024 .f32) (v36 : FVec Ideal S1x1024 .f32) (v62 v66 : Vec Ideal S1x1024 .f32)
    (p : Fin 512) (d : Fin 1024) :
    k1_pay1 (F := Ideal) v12 v33 v36 v62 v66 (ix2 p d)
      = Cert.Attn.layerNorm
          (fun e => (wOne - v36 (ix2 (0 : Fin 1) e)) * v12 (ix2 p e) + v36 (ix2 (0 : Fin 1) e) * v33 (ix2 p e))
          (fun e => v62 (ix2 (0 : Fin 1) e)) (fun e => v66 (ix2 (0 : Fin 1) e)) d := by
  rw [pay1_eq, normV_apply]
  exact congrArg (fun c => Cert.Attn.layerNorm c _ _ d) (funext fun e => mixV_apply v12 v33 v36 p e)

/-! ## The attention -/

/-- The dimension numbers of the product of the queries with the keys: the right operand contracted on its second
    axis. -/
abbrev D2 : DotDims S512x1024 S2048x1024 S512x2048 := dot_S512x1024_S2048x1024_S512x2048_1_1_0_0_n_n

theorem D2_lhs0 (i : S512x2048.Idx) (q : D2.contr.Idx) : (D2.lhsIdx i q 0).val = (i 0).val := by
  unfold DotDims.lhsIdx
  rw [dif_neg (show ¬(0 : Fin S512x1024.rank) ∈ D2.lhsBatch by decide),
    dif_pos (show (0 : Fin S512x1024.rank) ∈ D2.lhsNonContracting by decide)]
  rfl

theorem D2_lhs1 (i : S512x2048.Idx) (q : D2.contr.Idx) : (D2.lhsIdx i q 1).val = (q ⟨0, by decide⟩).val :=
  D2.lhsIdx_val_of_single rfl i q

theorem D2_rhs0 (i : S512x2048.Idx) (q : D2.contr.Idx) : (D2.rhsIdx i q 0).val = (i 1).val := by
  unfold DotDims.rhsIdx
  rw [dif_neg (show ¬(0 : Fin S2048x1024.rank) ∈ D2.rhsBatch by decide),
    dif_pos (show (0 : Fin S2048x1024.rank) ∈ D2.rhsNonContracting by decide)]
  rfl

theorem D2_rhs1 (i : S512x2048.Idx) (q : D2.contr.Idx) : (D2.rhsIdx i q 1).val = (q ⟨0, by decide⟩).val :=
  D2.rhsIdx_val_of_single rfl i q

/-- The product of a [512, 1024] block with the transpose of a [2048, 1024] matrix, into a zero accumulator, at
    (p, n): the inner product of row p of the block with row n of the matrix. -/
theorem keyDot_apply {φ₁ φ₂ : FTy} (h : FVec Ideal S512x1024 φ₁) (w : FVec Ideal S2048x1024 φ₂) (p : Fin 512)
    (n : Fin 2048) :
    matmul D2 none h w (constant S512x2048 .f32 0x00000000#32) (ix2 p n) = ∑ k : Fin 1024, h (ix2 p k) * w (ix2 n k) := by
  refine (Ideal.matmul_constant_zero_apply D2 none h w (ix2 p n)).trans ?_
  rw [← Equiv.sum_comp (ValueIdx.contrEquiv1 D2 1024 rfl rfl).symm]
  refine Finset.sum_congr rfl fun k _ => ?_
  have hk := ValueIdx.contrEquiv1_symm_val D2 1024 rfl rfl k
  have el : D2.lhsIdx (ix2 p n) ((ValueIdx.contrEquiv1 D2 1024 rfl rfl).symm k) = ix2 p k :=
    funext fun a => Fin.ext (by
      match a with
      | ⟨0, _⟩ => exact D2_lhs0 _ _
      | ⟨1, _⟩ => exact (D2_lhs1 _ _).trans hk)
  have er : D2.rhsIdx (ix2 p n) ((ValueIdx.contrEquiv1 D2 1024 rfl rfl).symm k) = ix2 n k :=
    funext fun a => Fin.ext (by
      match a with
      | ⟨0, _⟩ => exact D2_rhs0 _ _
      | ⟨1, _⟩ => exact (D2_rhs1 _ _).trans hk)
  rw [el, er]

/-- The query block: the feature block times the query weights. -/
def qV (v0 : Vec Ideal S512x1024 .f32) (v3 : Vec Ideal S1024x1024 .bf16) : FVec Ideal S512x1024 .bf16 :=
  truncf .bf16 (matmul dot_S512x1024_S1024x1024_S512x1024_1_0_0_1_n_n none (k1_pay2 v0)
    (shapeCast S1024x1024 v3 shapeCasts_S1024x1024_S1024x1024 : FVec Ideal S1024x1024 .bf16)
    (constant S512x1024 .f32 0x00000000#32)) bitsLt_bf16_f32

theorem qV_apply (v0 : Vec Ideal S512x1024 .f32) (v3 : Vec Ideal S1024x1024 .bf16) (p : Fin 512) (e : Fin 1024) :
    qV v0 v3 (ix2 p e) = Cert.Attn.proj (fun e' => v0 (ix2 p e')) (fun r e' => v3 (ix2 e' r)) e := by
  unfold qV k1_pay2
  rw [truncf_apply]
  refine (Cert.Lib.Softplus.matmul0_plain_apply _ dot1_plain none _ _ p e).trans ?_
  simp only [shapeCast_self]
  rfl

/-- The scaled scores of a query block against the keys. -/
def sV (q : FVec Ideal S512x1024 .bf16) (v14 : Vec Ideal S2048x1024 .bf16) : FVec Ideal S512x2048 .f32 :=
  mulf (matmul dot_S512x1024_S2048x1024_S512x2048_1_1_0_0_n_n none q
      (shapeCast S2048x1024 v14 shapeCasts_S2048x1024_S2048x1024 : FVec Ideal S2048x1024 .bf16)
      (constant S512x2048 .f32 0x00000000#32))
    (broadcast S512x2048 (FloatOps.ofBits (F := Ideal) .f32 0x3D000000#32))

theorem sV_apply (q : FVec Ideal S512x1024 .bf16) (v14 : Vec Ideal S2048x1024 .bf16) (p : Fin 512) (n : Fin 2048) :
    sV q v14 (ix2 p n)
      = Cert.Attn.scaleK (Cert.Attn.rawScore (fun e => q (ix2 p e)) (fun n e => v14 (ix2 n e)) n) := by
  unfold sV Cert.Attn.scaleK Cert.Attn.rawScore
  rw [mulf_apply, broadcast_apply]
  refine congrArg (fun s => s * Ideal.ofBits .f32 0x3D000000#32) ((keyDot_apply _ _ p n).trans ?_)
  rw [shapeCast_self]

/-- The maximum of each row of scores, as a column. -/
def mxV (s : FVec Ideal S512x2048 .f32) : FVec Ideal S512x1 .f32 :=
  shapeCast S512x1 (multiReduction .maximumf [1] S512 s 0xFF800000#32 reduces_S512x2048_S512 (.inl rfl) rfl)
    shapeCasts_S512_S512x1

theorem mxV_apply (s : FVec Ideal S512x2048 .f32) (p : Fin 512) (u : Fin 1) :
    mxV s (ix2 p u) = Cert.Attn.rowMax fun n => s (ix2 p n) := by
  unfold mxV Cert.Attn.rowMax
  rw [PhysLoss.shapeCast_a_a1_apply]
  exact rowMax_apply s _ _ _ _ p

/-- The exponential of each score less its row's maximum. -/
def eV (s : FVec Ideal S512x2048 .f32) : FVec Ideal S512x2048 .f32 :=
  exp (subf s (broadcastTo S512x2048 (mxV s) broadcasts_S512x1_S512x2048))

theorem eV_apply (s : FVec Ideal S512x2048 .f32) (p : Fin 512) (n : Fin 2048) :
    eV s (ix2 p n) = Cert.Attn.expo (fun n => s (ix2 p n)) n := by
  unfold eV Cert.Attn.expo
  show Ideal.exp (subf s (broadcastTo S512x2048 (mxV s) broadcasts_S512x1_S512x2048) (ix2 p n)) = _
  rw [subf_apply, PhysLoss.broadcastTo_a1_ab_apply, mxV_apply]

/-- The reciprocal of each row's sum of exponentials, as a column. -/
def invV (s : FVec Ideal S512x2048 .f32) : FVec Ideal S512x1 .f32 :=
  divf (broadcast S512x1 (FloatOps.ofBits (F := Ideal) .f32 0x3F800000#32))
    (shapeCast S512x1 (multiReduction .add [1] S512 (eV s) 0x00000000#32 reduces_S512x2048_S512 (.inl rfl) rfl)
      shapeCasts_S512_S512x1)

theorem invV_apply (s : FVec Ideal S512x2048 .f32) (p : Fin 512) (u : Fin 1) :
    invV s (ix2 p u) = Ideal.div wOne (Cert.Attn.denom fun n => s (ix2 p n)) := by
  unfold invV Cert.Attn.denom
  rw [divf_apply, broadcast_apply, PhysLoss.shapeCast_a_a1_apply]
  refine congrArg (fun l => Ideal.div wOne l) ((rowSum_apply _ _ _ _ _ p).trans ?_)
  exact Finset.sum_congr rfl fun n _ => eV_apply s p n

/-- The attention weights: each exponential times the reciprocal of its row's sum. -/
def aV (s : FVec Ideal S512x2048 .f32) : FVec Ideal S512x2048 .bf16 :=
  truncf .bf16 (mulf (eV s) (broadcastTo S512x2048 (invV s) broadcasts_S512x1_S512x2048)) bitsLt_bf16_f32

theorem aV_apply (s : FVec Ideal S512x2048 .f32) (p : Fin 512) (n : Fin 2048) :
    aV s (ix2 p n) = Cert.Attn.attn Cert.Attn.normK (fun n => s (ix2 p n)) n := by
  unfold aV Cert.Attn.attn Cert.Attn.normK
  rw [truncf_apply, mulf_apply, PhysLoss.broadcastTo_a1_ab_apply, eV_apply, invV_apply]

theorem dot3_plain : dot_S512x2048_S2048x1024_S512x1024_1_0_0_1_n_n = DotDims.plain 512 2048 1024 := rfl

/-- The attended value: the attention weights times the values. -/
def gV (a : FVec Ideal S512x2048 .bf16) (v16 : Vec Ideal S2048x1024 .bf16) : FVec Ideal S512x1024 .f32 :=
  matmul dot_S512x2048_S2048x1024_S512x1024_1_0_0_1_n_n none a
    (shapeCast S2048x1024 v16 shapeCasts_S2048x1024_S2048x1024 : FVec Ideal S2048x1024 .bf16)
    (constant S512x1024 .f32 0x00000000#32)

theorem gV_apply (a : FVec Ideal S512x2048 .bf16) (v16 : Vec Ideal S2048x1024 .bf16) (p : Fin 512) (d : Fin 1024) :
    gV a v16 (ix2 p d) = ∑ n : Fin 2048, a (ix2 p n) * v16 (ix2 n d) := by
  unfold gV
  refine (Cert.Lib.Softplus.matmul0_plain_apply _ dot3_plain none _ _ p d).trans ?_
  rw [shapeCast_self]

/-- The attention payload is the attended value of the weights of the scaled scores of the queries. -/
theorem pay4_eq (v0 : Vec Ideal S512x1024 .f32) (v3 : Vec Ideal S1024x1024 .bf16) (v14 v16 : Vec Ideal S2048x1024 .bf16) :
    k1_pay4 (F := Ideal) v0 v3 v14 v16 = gV (aV (sV (qV v0 v3) v14)) v16 := rfl

theorem pay4_apply (v0 : Vec Ideal S512x1024 .f32) (v3 : Vec Ideal S1024x1024 .bf16) (v14 v16 : Vec Ideal S2048x1024 .bf16)
    (p : Fin 512) (d : Fin 1024) :
    k1_pay4 (F := Ideal) v0 v3 v14 v16 (ix2 p d)
      = Cert.Attn.attended Cert.Attn.normK
          (Cert.Attn.scores Cert.Attn.scaleK (fun e => v0 (ix2 p e)) (fun r e => v3 (ix2 e r))
            (fun n e => v14 (ix2 n e)))
          (fun n e => v16 (ix2 n e)) d := by
  have hs : (fun n => sV (qV v0 v3) v14 (ix2 p n))
      = Cert.Attn.scores Cert.Attn.scaleK (fun e => v0 (ix2 p e)) (fun r e => v3 (ix2 e r))
          (fun n e => v14 (ix2 n e)) := by
    funext n
    rw [sV_apply]
    unfold Cert.Attn.scores
    exact congrArg (fun q => Cert.Attn.scaleK (Cert.Attn.rawScore q _ n)) (funext fun e => qV_apply v0 v3 p e)
  rw [pay4_eq, gV_apply]
  unfold Cert.Attn.attended
  refine Finset.sum_congr rfl fun n _ => ?_
  rw [aV_apply, hs]

/-! ## The stored block -/

theorem origin_zero : (![0, 0] : Fin 2 → Nat) = fun _ => 0 := funext fun a => by fin_cases a <;> rfl

/-- Entry (p, d) of the block the body stores is entry d of the output row of row p of the feature block. -/
theorem out1_9_apply (x0 : Vec Ideal S512x1024 .f32) (x1 x2 : Vec Ideal S1024x1024 .bf16) (x3 : Vec Ideal S1x1024 .f32)
    (x4 x5 : Vec Ideal S2048x1024 .bf16) (x6 x7 x8 : Vec Ideal S1x1024 .f32) (p : Fin 512) (d : Fin 1024) :
    Cert.KernelIdeal.Gen.out1_9 (F := Ideal) x0 x1 x2 x3 x4 x5 x6 x7 x8 (ix2 p d)
      = Cert.Attn.coreRow Cert.Attn.scaleK Cert.Attn.normK (fun e => x0 (ix2 p e)) (fun r e => x1 (ix2 e r))
          (fun r e => x2 (ix2 e r)) (fun r => x3 (ix2 (0 : Fin 1) r)) (fun n e => x4 (ix2 n e))
          (fun n e => x5 (ix2 n e)) (fun r => x6 (ix2 (0 : Fin 1) r)) (fun r => x7 (ix2 (0 : Fin 1) r))
          (fun r => x8 (ix2 (0 : Fin 1) r)) d := by
  unfold out1_9
  rw [View.canon_unit_zero origin_zero]
  simp only [View.ld_unit_zero (S := S512x1024) origin_zero, View.ld_unit_zero (S := S1024x1024) origin_zero,
    View.ld_unit_zero (S := S1x1024) origin_zero, View.ld_unit_zero (S := S2048x1024) origin_zero]
  rw [pay1_apply]
  unfold Cert.Attn.coreRow Cert.Attn.mix
  refine congrArg (fun c => Cert.Attn.layerNorm c _ _ d) (funext fun e => ?_)
  rw [pay3_apply, pay4_apply, pay5_apply]

end Cert.Attn.Body1

end
-- ==== Proof.KernelValue.lean ====
/-
  The kernel's value: the result buffer after the run, as the layer in the kernel's spelling of the argument arrays.

  From the last boundary backwards: the last host operation gives the second call's output array [8192, 1024] its unit
  middle axis; that array is, row by row, the output row of the matching row of the joint-feature matrix, over the
  second call's other operands as they stand when it is entered; of those, the keys and the values are what the first
  call wrote (confounders times key weights transposed; confounders scaled by their prior), and every other one is
  what the host operations before the first call made of an argument (a reshape, a transpose, a row).
-/
import proofs.«168509_j81982335746417_2_alg».proof.Proof.HostSide
import proofs.«168509_j81982335746417_2_alg».proof.Proof.Spec
import proofs.«168509_j81982335746417_2_alg».proof.Proof.Arrays
import proofs.«168509_j81982335746417_2_alg».proof.Proof.Body1
import Idealize.ShloMosaic.Lib.Pipeline.Value

set_option maxRecDepth 16384

noncomputable section

namespace Cert.Attn.Run

open Cert.KernelIdeal Cert.KernelIdeal.Gen
open Idealize.ShloMosaic Idealize.ShloMosaic.TcCoe Idealize.ShloMosaic.ValueIdx Idealize.ShloMosaic.StableHlo
open Idealize.SL.Sem Cert.Attn

variable (m : (ℓ : Loc nD τ sig) → Buf (Elt Ideal) ℓ) (ρ : Dev nD → PrngReg)

/-- The keys array read at (n, e), once its two operands are identified with the confounders and with the key weights
    transposed: the inner product of confounder n with row e of the key weights. -/
theorem keysOf_kmat (conf conf' : S2048x1024.Idx → EReal) (wkT wk : S1024x1024.Idx → EReal) (hc : conf = conf')
    (hw : ∀ e' e : Fin 1024, wkT (ix2 e' e) = wk (ix2 e e')) (n : Fin 2048) (e : Fin 1024) :
    Cert.Attn.Arrays.keysOf conf wkT (ix2 n e) = kmat (fun n e => conf' (ix2 n e)) (fun r e => wk (ix2 r e)) n e := by
  subst hc
  unfold kmat proj
  exact Finset.sum_congr rfl fun e' _ => congrArg (conf (ix2 n e') * ·) (hw e' e)

/-- The values array read at (n, e), once its two operands are identified with the confounders and the prior. -/
theorem valuesOf_vmat (conf conf' : S2048x1024.Idx → EReal) (prior prior' : S2048x1.Idx → EReal) (hc : conf = conf')
    (hp : prior = prior') (n : Fin 2048) (e : Fin 1024) :
    Cert.Attn.Arrays.valuesOf conf prior (ix2 n e) = vmat (fun n e => conf' (ix2 n e)) (fun n => prior' (ix2 n (0 : Fin 1))) n e := by
  subst hc; subst hp
  rfl

/-- The keys after the first call, entry (n, e): the inner product of confounder n with row e of the key weights. -/
theorem second_keys (c : Dev nD) (n : Fin 2048) (e : Fin 1024) :
    V2 m ρ c main_v11_0 (ix2 n e)
      = kmat (fun n e => m ((c : Thread nD τ).loc main_arg1) (ix2 n e)) (fun r e => m ((c : Thread nD τ).loc main_arg4) (ix2 r e)) n e := by
  have h : (V2 m ρ c main_v11_0 : S2048x1024.Idx → EReal) = Cert.Attn.Arrays.keysOf (V1 m ρ c main_arg1) (V1 m ρ c main_v4) :=
    (W2_arr m ρ c 3).trans (Cert.Attn.Arrays.keys_array (V1 m ρ) c)
  exact (congrFun h (ix2 n e)).trans
    (keysOf_kmat _ _ _ _ (first_arg1 m ρ c) (fun e' e => first_v4_apply m ρ c e' e) n e)

/-- The values after the first call, entry (n, e): the confounder's entry times its prior. -/
theorem second_values (c : Dev nD) (n : Fin 2048) (e : Fin 1024) :
    V2 m ρ c main_v11_1 (ix2 n e)
      = vmat (fun n e => m ((c : Thread nD τ).loc main_arg1) (ix2 n e)) (fun n => m ((c : Thread nD τ).loc main_arg2) (ix2 n (0 : Fin 1))) n e := by
  have h : (V2 m ρ c main_v11_1 : S2048x1024.Idx → EReal) = Cert.Attn.Arrays.valuesOf (V1 m ρ c main_arg1) (V1 m ρ c main_arg2) :=
    (W2_arr m ρ c 4).trans (Cert.Attn.Arrays.values_array (V1 m ρ) c)
  exact (congrFun h (ix2 n e)).trans (valuesOf_vmat _ _ _ _ (first_arg1 m ρ c) (first_arg2 m ρ c) n e)

/-- A buffer the first call does not own is, after it, as before it. -/
theorem second_v0 (c : Dev nD) : V2 m ρ c main_v0 = V1 m ρ c main_v0 := W2_of_ne m ρ c main_v0 (by decide)
theorem second_v2 (c : Dev nD) : V2 m ρ c main_v2 = V1 m ρ c main_v2 := W2_of_ne m ρ c main_v2 (by decide)
theorem second_v6 (c : Dev nD) : V2 m ρ c main_v6 = V1 m ρ c main_v6 := W2_of_ne m ρ c main_v6 (by decide)
theorem second_v7 (c : Dev nD) : V2 m ρ c main_v7 = V1 m ρ c main_v7 := W2_of_ne m ρ c main_v7 (by decide)
theorem second_v8 (c : Dev nD) : V2 m ρ c main_v8 = V1 m ρ c main_v8 := W2_of_ne m ρ c main_v8 (by decide)
theorem second_v9 (c : Dev nD) : V2 m ρ c main_v9 = V1 m ρ c main_v9 := W2_of_ne m ρ c main_v9 (by decide)
theorem second_v10 (c : Dev nD) : V2 m ρ c main_v10 = V1 m ρ c main_v10 := W2_of_ne m ρ c main_v10 (by decide)

/-- The result buffer at the last boundary is the second call's output array with the unit middle axis put in. -/
theorem last_v13 (c : Dev nD) :
    (W4 m ρ c (Proc.devRef .tc main_v13) : S8192x1x1024.Idx → EReal)
      = broadcastInDim S8192x1x1024 ![0, 2] bcast_S8192x1024_S8192x1x1024_0_2
          ((dat1 (V2 m ρ) c).arrAt 9 cfg1.N : S8192x1024.Idx → EReal) := by
  have e : (W4 m ρ c (Proc.devRef .tc main_v13) : S8192x1x1024.Idx → EReal)
      = broadcastInDim S8192x1x1024 ![0, 2] bcast_S8192x1024_S8192x1x1024_0_2 (W3 m ρ c (Proc.devRef .tc main_v12) : S8192x1024.Idx → EReal) := by
    show StableHlo.after hostOps2 (W3 m ρ c) (Proc.devRef .tc main_v13) = _
    after_results
    all_goals rfl
  rw [e]
  exact congrArg (broadcastInDim S8192x1x1024 ![0, 2] bcast_S8192x1024_S8192x1x1024_0_2) (W3_arr m ρ c 9)

/-- THE KERNEL'S VALUE: the result buffer at the last boundary, entry (b, 0, d), is entry d of the output row of
    row b of the joint features, in the kernel's spelling, of the argument arrays as launched. -/
theorem kernel_value (c : Dev nD) (i : S8192x1x1024.Idx) :
    W4 m ρ c (Proc.devRef .tc main_v13) i
      = Cert.Attn.result scaleK normK (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) ⟨(i 0).val, (i 0).isLt⟩ ⟨(i 2).val, (i 2).isLt⟩ := by
  refine (congrFun (last_v13 m ρ c) i).trans ?_
  refine (broadcastInDim_apply _ bcast_S8192x1024_S8192x1x1024_0_2 _ i (ix2 ⟨(i 0).val, (i 0).isLt⟩ ⟨(i 2).val, (i 2).isLt⟩) (fun a => match a with
    | ⟨0, _⟩ => by show (i 0).val = if (8192 : Nat) = 1 then 0 else (i 0).val; rw [if_neg (by decide)]
    | ⟨1, _⟩ => by show (i 2).val = if (1024 : Nat) = 1 then 0 else (i 2).val; rw [if_neg (by decide)])).trans ?_
  refine (congrFun (Cert.Attn.Arrays.result_array (V2 m ρ) Cert.Attn.Body1.out1_9_apply c) _).trans ?_
  unfold Cert.Attn.result
  have e0 : (fun e : Fin 1024 => (V2 m ρ c main_v0 : S8192x1024.Idx → EReal) (ix2 ⟨(i 0).val, (i 0).isLt⟩ e))
      = fun e => m ((c.tc : Thread nD τ).loc main_arg0) (ix3 ⟨(i 0).val, (i 0).isLt⟩ (0 : Fin 1) e) :=
    funext fun e => (congrFun (second_v0 m ρ c) _).trans (first_v0_apply m ρ c _ e)
  have e1 : (fun r e : Fin 1024 => (V2 m ρ c main_v2 : S1024x1024.Idx → EReal) (ix2 e r))
      = fun r e => m ((c.tc : Thread nD τ).loc main_arg3) (ix2 r e) :=
    funext fun r => funext fun e => (congrFun (second_v2 m ρ c) _).trans (first_v2_apply m ρ c e r)
  have e2 : (fun r e : Fin 1024 => (V2 m ρ c main_v6 : S1024x1024.Idx → EReal) (ix2 e r))
      = fun r e => m ((c.tc : Thread nD τ).loc main_arg5) (ix2 r e) :=
    funext fun r => funext fun e => (congrFun (second_v6 m ρ c) _).trans (first_v6_apply m ρ c e r)
  have e3 : (fun r : Fin 1024 => (V2 m ρ c main_v7 : S1x1024.Idx → EReal) (ix2 (0 : Fin 1) r))
      = fun r => m ((c.tc : Thread nD τ).loc main_arg6) (ix1 r) :=
    funext fun r => (congrFun (second_v7 m ρ c) _).trans (first_v7_apply m ρ c r)
  have e4 : (fun (n : Fin 2048) (e : Fin 1024) => (V2 m ρ c main_v11_0 : S2048x1024.Idx → EReal) (ix2 n e))
      = kmat (fun n e => m ((c.tc : Thread nD τ).loc main_arg1) (ix2 n e)) (fun r e => m ((c.tc : Thread nD τ).loc main_arg4) (ix2 r e)) :=
    funext fun n => funext fun e => second_keys m ρ c n e
  have e5 : (fun (n : Fin 2048) (e : Fin 1024) => (V2 m ρ c main_v11_1 : S2048x1024.Idx → EReal) (ix2 n e))
      = vmat (fun n e => m ((c.tc : Thread nD τ).loc main_arg1) (ix2 n e)) (fun n => m ((c.tc : Thread nD τ).loc main_arg2) (ix2 n (0 : Fin 1))) :=
    funext fun n => funext fun e => second_values m ρ c n e
  have e6 : (fun r : Fin 1024 => (V2 m ρ c main_v8 : S1x1024.Idx → EReal) (ix2 (0 : Fin 1) r))
      = fun r => m ((c.tc : Thread nD τ).loc main_arg7) (ix1 r) :=
    funext fun r => (congrFun (second_v8 m ρ c) _).trans (first_v8_apply m ρ c r)
  have e7 : (fun r : Fin 1024 => (V2 m ρ c main_v9 : S1x1024.Idx → EReal) (ix2 (0 : Fin 1) r))
      = fun r => m ((c.tc : Thread nD τ).loc main_arg8) (ix1 r) :=
    funext fun r => (congrFun (second_v9 m ρ c) _).trans (first_v9_apply m ρ c r)
  have e8 : (fun r : Fin 1024 => (V2 m ρ c main_v10 : S1x1024.Idx → EReal) (ix2 (0 : Fin 1) r))
      = fun r => m ((c.tc : Thread nD τ).loc main_arg9) (ix1 r) :=
    funext fun r => (congrFun (second_v10 m ρ c) _).trans (first_v10_apply m ρ c r)
  show coreRow scaleK normK (fun e : Fin 1024 => (V2 m ρ c main_v0 : S8192x1024.Idx → EReal) (ix2 ⟨(i 0).val, (i 0).isLt⟩ e))
      (fun r e : Fin 1024 => (V2 m ρ c main_v2 : S1024x1024.Idx → EReal) (ix2 e r))
      (fun r e : Fin 1024 => (V2 m ρ c main_v6 : S1024x1024.Idx → EReal) (ix2 e r))
      (fun r : Fin 1024 => (V2 m ρ c main_v7 : S1x1024.Idx → EReal) (ix2 (0 : Fin 1) r))
      (fun (n : Fin 2048) (e : Fin 1024) => (V2 m ρ c main_v11_0 : S2048x1024.Idx → EReal) (ix2 n e))
      (fun (n : Fin 2048) (e : Fin 1024) => (V2 m ρ c main_v11_1 : S2048x1024.Idx → EReal) (ix2 n e))
      (fun r : Fin 1024 => (V2 m ρ c main_v8 : S1x1024.Idx → EReal) (ix2 (0 : Fin 1) r))
      (fun r : Fin 1024 => (V2 m ρ c main_v9 : S1x1024.Idx → EReal) (ix2 (0 : Fin 1) r))
      (fun r : Fin 1024 => (V2 m ρ c main_v10 : S1x1024.Idx → EReal) (ix2 (0 : Fin 1) r)) ⟨(i 2).val, (i 2).isLt⟩ = _
  rw [e0, e1, e2, e3, e4, e5, e6, e7, e8]

end Cert.Attn.Run

end
-- ==== Proof.RefValue.lean ====
/-
  The reference program read as the specification: entry (b, 0, d) of the reference's result is entry d of the
  specified output row of row b of the joint features, with the reference's scaling (the quotient by the square
  root of the width) and normalisation (the quotient by the row's sum of exponentials).

  Each stage of the reference is read at explicit coordinates, bottom up: the query and key projections, the raw
  and scaled scores, the row maximum as a fold of max, the exponentials and their sum, the attention weights, the
  values, the attended value, the augmented feature, the gate, the mix, and the layer normalisation's mean,
  variance and result.
-/
import proofs.«168509_j81982335746417_2_alg».proof.Proof.Gen.ReferenceIdeal.Read
import proofs.«168509_j81982335746417_2_alg».proof.Proof.Spec
import proofs.«168509_j81982335746417_2_alg».proof.Proof.Consts
import Idealize.ShloMosaic.PureOps.Ideal.Laws
import Idealize.ShloMosaic.PureOps.Reduce
import Idealize.ShloMosaic.Lib.ValueIdx

noncomputable section

namespace Cert.Attn.Ref

open Cert.ReferenceIdeal Cert.ReferenceIdeal.Gen Cert.ReferenceIdeal.Read Idealize.ShloMosaic Idealize.ShloMosaic.ValueIdx

variable (x0 : (⟨S8192x1x1024, .f32⟩ : BufTy).Contents (Elt Ideal))
  (x1 : (⟨S2048x1024, .f32⟩ : BufTy).Contents (Elt Ideal))
  (x2 : (⟨S2048x1, .f32⟩ : BufTy).Contents (Elt Ideal))
  (x3 x4 x5 : (⟨S1024x1024, .f32⟩ : BufTy).Contents (Elt Ideal))
  (x6 x7 x8 x9 : (⟨S1024, .f32⟩ : BufTy).Contents (Elt Ideal))

/-- Row b of the joint features. -/
abbrev xrow (b : Fin 8192) : Fin 1024 → EReal := fun e => x0 (ix3 b (0 : Fin 1) e)
/-- The confounder dictionary by rows. -/
abbrev conf : Fin 2048 → Fin 1024 → EReal := fun n e => x1 (ix2 n e)
/-- The prior, one entry per confounder. -/
abbrev prior : Fin 2048 → EReal := fun n => x2 (ix2 n (0 : Fin 1))
/-- A square weight array by rows. -/
abbrev wmat (w : (⟨S1024x1024, .f32⟩ : BufTy).Contents (Elt Ideal)) : Fin 1024 → Fin 1024 → EReal :=
  fun r e => w (ix2 r e)
/-- A width-long parameter array by entries. -/
abbrev wvec (v : (⟨S1024, .f32⟩ : BufTy).Contents (Elt Ideal)) : Fin 1024 → EReal := fun r => v (ix1 r)
/-- The keys. -/
abbrev km : Fin 2048 → Fin 1024 → EReal := kmat (conf x1) (wmat x4)
/-- The values. -/
abbrev vm : Fin 2048 → Fin 1024 → EReal := vmat (conf x1) (prior x2)
/-- The scaled scores of row b. -/
abbrev sc (b : Fin 8192) : Fin 2048 → EReal := scores scaleR (xrow x0 b) (wmat x3) (km x1 x4)
/-- The gated mix of row b. -/
abbrev mx (b : Fin 8192) : Fin 1024 → EReal :=
  mix scaleR normR (xrow x0 b) (wmat x3) (wmat x5) (wvec x6) (km x1 x4) (vm x1 x2) (wvec x7)

/-- The flattened joint features at (b, e) are the joint features at (b, 0, e). -/
theorem flat_at (b : Fin 8192) (e : Fin 1024) :
    val_main_v0 (F := Ideal) x0 (ix2 b e) = xrow x0 b e := by
  rw [val_main_v0_apply]
  refine congrArg x0 (funext fun a => Fin.ext ?_)
  have hb := b.isLt
  have he := e.isLt
  match a with
  | ⟨0, _⟩ => show (b.val * 1024 + e.val) / 1024 = b.val; omega
  | ⟨1, _⟩ => rfl
  | ⟨2, _⟩ => show (b.val * 1024 + e.val) % 1024 = e.val; omega

/-- The query at (b, d): the inner product of row b of the joint features with row d of the query weights. -/
theorem query_at (b : Fin 8192) (d : Fin 1024) :
    val_main_v2 (F := Ideal) x0 x3 (ix2 b d) = proj (xrow x0 b) (wmat x3) d := by
  rw [val_main_v2_apply]
  unfold proj
  refine Finset.sum_congr rfl fun k _ => ?_
  have el : lidx_main_v2 (ix2 b d) k = ix2 b k :=
    funext fun a => Fin.ext (by match a with | ⟨0, _⟩ => rfl | ⟨1, _⟩ => rfl)
  have er : idx_main_v1 (ridx_main_v2 (ix2 b d) k) = ix2 d k :=
    funext fun a => Fin.ext (by match a with | ⟨0, _⟩ => rfl | ⟨1, _⟩ => rfl)
  rw [el, flat_at, val_main_v1_apply, er]

/-- The keys at (n, d): the inner product of confounder n with row d of the key weights. -/
theorem keys_at (n : Fin 2048) (d : Fin 1024) :
    val_main_v4 (F := Ideal) x1 x4 (ix2 n d) = km x1 x4 n d := by
  rw [val_main_v4_apply]
  unfold km kmat proj
  refine Finset.sum_congr rfl fun k _ => ?_
  have el : lidx_main_v4 (ix2 n d) k = ix2 n k :=
    funext fun a => Fin.ext (by match a with | ⟨0, _⟩ => rfl | ⟨1, _⟩ => rfl)
  have er : idx_main_v3 (ridx_main_v4 (ix2 n d) k) = ix2 d k :=
    funext fun a => Fin.ext (by match a with | ⟨0, _⟩ => rfl | ⟨1, _⟩ => rfl)
  rw [el, val_main_v3_apply, er]

/-- The raw scores at (b, n): the inner product of query b with key n. -/
theorem raw_at (b : Fin 8192) (n : Fin 2048) :
    val_main_v6 (F := Ideal) x0 x1 x3 x4 (ix2 b n)
      = rawScore (proj (xrow x0 b) (wmat x3)) (km x1 x4) n := by
  rw [val_main_v6_apply]
  unfold rawScore
  refine Finset.sum_congr rfl fun k _ => ?_
  have el : lidx_main_v6 (ix2 b n) k = ix2 b k :=
    funext fun a => Fin.ext (by match a with | ⟨0, _⟩ => rfl | ⟨1, _⟩ => rfl)
  have er : idx_main_v5 (ridx_main_v6 (ix2 b n) k) = ix2 n k :=
    funext fun a => Fin.ext (by match a with | ⟨0, _⟩ => rfl | ⟨1, _⟩ => rfl)
  rw [el, query_at, val_main_v5_apply, er, keys_at]

/-- The scaled scores at (b, n): the raw score divided by the square root of the width word. -/
theorem scaled_at (b : Fin 8192) (n : Fin 2048) :
    val_main_v9 (F := Ideal) x0 x1 x3 x4 (ix2 b n) = sc x0 x1 x3 x4 b n := by
  rw [val_main_v9_apply, raw_at, val_main_v8_apply, val_main_v7_apply, val_main_cst_apply]
  rfl

/-- In an [8192, 2048] array reduced along its rows, the reduced index b with column k put back is (b, k). -/
theorem lift_cols (h : S8192x2048.Reduces [1] S8192) (b : Fin 8192) (k : Fin (S8192x2048.size 1)) :
    h.lift (ix1 b) k = ix2 b (⟨k.val, k.isLt⟩ : Fin 2048) := by
  funext d; apply Fin.ext
  fin_cases d <;> rfl

/-- The reference's row maximum at b: the fold of max from the word −∞ over the row's scaled scores. The reference
    takes the maximum of −∞ with that fold once more, which changes nothing: the fold already starts from −∞. -/
theorem rowmax_at (b : Fin 8192) :
    val_main_v12 (F := Ideal) x0 x1 x3 x4 (ix1 b) = rowMax (sc x0 x1 x3 x4 b) := by
  have h : S8192x2048.Reduces [1] S8192 := by decide
  have hfold : val_main_v10 (F := Ideal) x0 x1 x3 x4 (ix1 b)
      = (Finset.univ : Finset (Fin 2048)).fold max wNegInf (sc x0 x1 x3 x4 b) := by
    refine (Host.reduce_eq_fold_single (FloatOps.maximumf (F := Ideal) (φ := .f32)) (val_main_v9 (F := Ideal) x0 x1 x3 x4) _
      reducesTo_S8192x2048_S8192_d1 h h_S_ (ix1 b)).trans ?_
    refine congrArg (fun f => Finset.fold max wNegInf f (Finset.univ : Finset (Fin 2048))) ?_
    funext k
    exact (congrArg (val_main_v9 (F := Ideal) x0 x1 x3 x4) (lift_cols h b k)).trans
      (scaled_at x0 x1 x3 x4 b ⟨k.val, k.isLt⟩)
  rw [val_main_v12_apply, val_main_v11_apply, val_main_cst_1_apply, hfold]
  exact max_eq_right ((Finset.le_fold_max _).mpr (Or.inl le_rfl))

/-- The exponentials at (b, n): the exponential of the scaled score less the row maximum. -/
theorem expo_at (b : Fin 8192) (n : Fin 2048) :
    val_main_v16 (F := Ideal) x0 x1 x3 x4 (ix2 b n) = expo (sc x0 x1 x3 x4 b) n := by
  have e1 : idx_main_v13 (idx_main_v14 (ix2 b n)) = ix1 b :=
    funext fun a => Fin.ext (by match a with | ⟨0, _⟩ => rfl)
  rw [val_main_v16_apply, val_main_v15_apply, scaled_at, val_main_v14_apply, val_main_v13_apply, e1, rowmax_at]
  rfl

/-- The row's sum of exponentials at b (the reference adds it to the word 0). -/
theorem denom_at (b : Fin 8192) :
    val_main_v17 (F := Ideal) x0 x1 x3 x4 (ix1 b) = denom (sc x0 x1 x3 x4 b) := by
  rw [val_main_v17_apply, val_main_cst_2_apply]
  unfold denom
  refine (congrArg₂ (fun u v : EReal => u + v) Ideal.ofBits_zero_f32 (Finset.sum_congr rfl fun k _ => ?_)).trans
    (zero_add _)
  have ek : idx_main_v17 (ix1 b) k = ix2 b k :=
    funext fun a => Fin.ext (by match a with | ⟨0, _⟩ => rfl | ⟨1, _⟩ => rfl)
  rw [ek, expo_at]

/-- The attention weights at (b, n): the exponential divided by the row's sum. -/
theorem attn_at (b : Fin 8192) (n : Fin 2048) :
    val_main_v20 (F := Ideal) x0 x1 x3 x4 (ix2 b n) = attn normR (sc x0 x1 x3 x4 b) n := by
  have e1 : idx_main_v18 (idx_main_v19 (ix2 b n)) = ix1 b :=
    funext fun a => Fin.ext (by match a with | ⟨0, _⟩ => rfl)
  rw [val_main_v20_apply, expo_at, val_main_v19_apply, val_main_v18_apply, e1, denom_at]
  rfl

/-- The values at (n, d): entry d of confounder n times its prior. -/
theorem values_at (n : Fin 2048) (d : Fin 1024) :
    val_main_v22 (F := Ideal) x1 x2 (ix2 n d) = vm x1 x2 n d := by
  have e1 : idx_main_v21 (ix2 n d) = ix2 n (0 : Fin 1) :=
    funext fun a => Fin.ext (by match a with | ⟨0, _⟩ => rfl | ⟨1, _⟩ => rfl)
  rw [val_main_v22_apply, val_main_v21_apply, e1]
  rfl

/-- The attended value at (b, d): the attention-weighted sum of the values' entry d. -/
theorem attended_at (b : Fin 8192) (d : Fin 1024) :
    val_main_v23 (F := Ideal) x0 x1 x2 x3 x4 (ix2 b d)
      = attended normR (sc x0 x1 x3 x4 b) (vm x1 x2) d := by
  rw [val_main_v23_apply]
  unfold attended
  refine Finset.sum_congr rfl fun k _ => ?_
  have el : lidx_main_v23 (ix2 b d) k = ix2 b k :=
    funext fun a => Fin.ext (by match a with | ⟨0, _⟩ => rfl | ⟨1, _⟩ => rfl)
  have er : ridx_main_v23 (ix2 b d) k = ix2 k d :=
    funext fun a => Fin.ext (by match a with | ⟨0, _⟩ => rfl | ⟨1, _⟩ => rfl)
  rw [el, er, attn_at, values_at]

/-- The augmented feature at (b, d): the inner product of row b with row d of the augmentation weights, plus the
    bias. -/
theorem aug_at (b : Fin 8192) (d : Fin 1024) :
    val_main_v28 (F := Ideal) x0 x5 x6 (ix2 b d) = proj (xrow x0 b) (wmat x5) d + wvec x6 d := by
  have hp : val_main_v25 (F := Ideal) x0 x5 (ix2 b d) = proj (xrow x0 b) (wmat x5) d := by
    rw [val_main_v25_apply]
    unfold proj
    refine Finset.sum_congr rfl fun k _ => ?_
    have el : lidx_main_v25 (ix2 b d) k = ix2 b k :=
      funext fun a => Fin.ext (by match a with | ⟨0, _⟩ => rfl | ⟨1, _⟩ => rfl)
    have er : idx_main_v24 (ridx_main_v25 (ix2 b d) k) = ix2 d k :=
      funext fun a => Fin.ext (by match a with | ⟨0, _⟩ => rfl | ⟨1, _⟩ => rfl)
    rw [el, flat_at, val_main_v24_apply, er]
  have e1 : idx_main_v26 (idx_main_v27 (ix2 b d)) = ix1 d :=
    funext fun a => Fin.ext (by match a with | ⟨0, _⟩ => rfl)
  rw [val_main_v28_apply, hp, val_main_v27_apply, val_main_v26_apply, e1]
  rfl

/-- The gate at d: the reference writes the logistic function out as 1 / (1 + exp(−balance)), with the word 1.0
    for both ones; that word is the real number one, so this is the logistic function of the balance. -/
theorem gate_at (d : Fin 1024) :
    val_main_v34 (F := Ideal) x7 (ix1 d) = Ideal.logistic (wvec x7 d) := by
  rw [val_main_v34_apply, val_main_v33_apply, val_main_cst_4_apply, val_main_v32_apply, val_main_v31_apply,
    val_main_cst_3_apply, val_main_v30_apply, val_main_v29_apply]
  show Ideal.div (Ideal.ofBits .f32 0x3F800000#32)
    (Ideal.ofBits .f32 0x3F800000#32 + Ideal.exp (-(x7 (ix1 d)))) = _
  rw [Consts.ofBits_one]
  rfl

/-- The gated mix at (b, d). The word 1.0 in (1 − gate) stays a word, as in the specification. -/
theorem mix_at (b : Fin 8192) (d : Fin 1024) :
    val_main_v43 (F := Ideal) x0 x1 x2 x3 x4 x5 x6 x7 (ix2 b d) = mx x0 x1 x2 x3 x4 x5 x6 x7 b d := by
  have e1 : idx_main_v37 (idx_main_v38 (ix2 b d)) = ix1 d :=
    funext fun a => Fin.ext (by match a with | ⟨0, _⟩ => rfl)
  have e2 : idx_main_v40 (idx_main_v41 (ix2 b d)) = ix1 d :=
    funext fun a => Fin.ext (by match a with | ⟨0, _⟩ => rfl)
  rw [val_main_v43_apply, val_main_v39_apply, val_main_v38_apply, val_main_v37_apply, e1, val_main_v36_apply,
    val_main_v35_apply, val_main_cst_5_apply, gate_at, aug_at, val_main_v42_apply, val_main_v41_apply,
    val_main_v40_apply, e2, gate_at, attended_at]
  rfl

/-- The mean of the mix over row b: the row's sum (added to the word 0) divided by the width word. -/
theorem mean_at (b : Fin 8192) :
    val_main_v47 (F := Ideal) x0 x1 x2 x3 x4 x5 x6 x7 (ix2 b (0 : Fin 1))
      = mean (mx x0 x1 x2 x3 x4 x5 x6 x7 b) := by
  have e1 : idx_main_v45 (ix2 b (0 : Fin 1)) = ix1 b :=
    funext fun a => Fin.ext (by match a with | ⟨0, _⟩ => rfl)
  rw [val_main_v47_apply, val_main_v45_apply, e1, val_main_v44_apply, val_main_cst_6_apply, val_main_v46_apply,
    val_main_cst_7_apply]
  unfold mean
  refine congrArg (fun u : EReal => Ideal.div u wDim) ?_
  refine (congrArg₂ (fun u v : EReal => u + v) Ideal.ofBits_zero_f32 (Finset.sum_congr rfl fun k _ => ?_)).trans
    (zero_add _)
  have ek : idx_main_v44 (ix1 b) k = ix2 b k :=
    funext fun a => Fin.ext (by match a with | ⟨0, _⟩ => rfl | ⟨1, _⟩ => rfl)
  rw [ek, mix_at]

/-- The variance of the mix over row b: the sum of the squared deviations from the mean, divided by the width
    word. -/
theorem var_at (b : Fin 8192) :
    val_main_v54 (F := Ideal) x0 x1 x2 x3 x4 x5 x6 x7 (ix2 b (0 : Fin 1))
      = variance (mx x0 x1 x2 x3 x4 x5 x6 x7 b) := by
  have e1 : idx_main_v52 (ix2 b (0 : Fin 1)) = ix1 b :=
    funext fun a => Fin.ext (by match a with | ⟨0, _⟩ => rfl)
  rw [val_main_v54_apply, val_main_v52_apply, e1, val_main_v51_apply, val_main_cst_8_apply, val_main_v53_apply,
    val_main_cst_9_apply]
  unfold variance
  refine congrArg (fun u : EReal => Ideal.div u wDim) ?_
  refine (congrArg₂ (fun u v : EReal => u + v) Ideal.ofBits_zero_f32 (Finset.sum_congr rfl fun k _ => ?_)).trans
    (zero_add _)
  have ek : idx_main_v51 (ix1 b) k = ix2 b k :=
    funext fun a => Fin.ext (by match a with | ⟨0, _⟩ => rfl | ⟨1, _⟩ => rfl)
  have e2 : idx_main_v48 (ix2 b k) = ix2 b (0 : Fin 1) :=
    funext fun a => Fin.ext (by match a with | ⟨0, _⟩ => rfl | ⟨1, _⟩ => rfl)
  rw [ek, val_main_v50_apply, val_main_v49_apply, mix_at, val_main_v48_apply, e2, mean_at]
  rfl

/-- The layer-normalised row at (b, d): the deviation from the mean times the reciprocal square root of the
    variance plus ε, scaled by γ and shifted by β. -/
theorem ln_at (b : Fin 8192) (d : Fin 1024) :
    val_main_v67 (F := Ideal) x0 x1 x2 x3 x4 x5 x6 x7 x8 x9 (ix2 b d)
      = layerNorm (mx x0 x1 x2 x3 x4 x5 x6 x7 b) (wvec x8) (wvec x9) d := by
  have e1 : idx_main_v55 (ix2 b d) = ix2 b (0 : Fin 1) :=
    funext fun a => Fin.ext (by match a with | ⟨0, _⟩ => rfl | ⟨1, _⟩ => rfl)
  have e2 : idx_main_v60 (ix2 b d) = ix2 b (0 : Fin 1) :=
    funext fun a => Fin.ext (by match a with | ⟨0, _⟩ => rfl | ⟨1, _⟩ => rfl)
  have e3 : idx_main_v62 (idx_main_v63 (ix2 b d)) = ix1 d :=
    funext fun a => Fin.ext (by match a with | ⟨0, _⟩ => rfl)
  have e4 : idx_main_v65 (idx_main_v66 (ix2 b d)) = ix1 d :=
    funext fun a => Fin.ext (by match a with | ⟨0, _⟩ => rfl)
  rw [val_main_v67_apply, val_main_v64_apply, val_main_v61_apply, val_main_v56_apply, mix_at, val_main_v55_apply,
    e1, mean_at, val_main_v60_apply, e2, val_main_v59_apply, val_main_v58_apply, var_at, val_main_v57_apply,
    val_main_cst_10_apply, val_main_v63_apply, val_main_v62_apply, e3, val_main_v66_apply, val_main_v65_apply, e4]
  rfl

/-- The reference's result at (b, 0, d) is entry d of the specified output row of row b of the joint features, with
    the reference's scaling and normalisation. -/
theorem ref_value (i : S8192x1x1024.Idx) :
    Cert.ReferenceIdeal.Read.val_main_v68 (F := Ideal) x0 x1 x2 x3 x4 x5 x6 x7 x8 x9 i
      = Cert.Attn.result Cert.Attn.scaleR Cert.Attn.normR x0 x1 x2 x3 x4 x5 x6 x7 x8 x9
          ⟨(i 0).val, (i 0).isLt⟩ ⟨(i 2).val, (i 2).isLt⟩ := by
  have e : idx_main_v68 i = ix2 (⟨(i 0).val, (i 0).isLt⟩ : Fin 8192) (⟨(i 2).val, (i 2).isLt⟩ : Fin 1024) :=
    funext fun a => Fin.ext (by match a with | ⟨0, _⟩ => rfl | ⟨1, _⟩ => rfl)
  rw [val_main_v68_apply, e, ln_at]
  rfl

end Cert.Attn.Ref

end
-- ==== Proof.Finite.lean ====
/-
  The finiteness precondition, read back.  The printed predicate is the conjunction of ten tests, one per argument
  array, each saying that every entry has absolute value strictly below +∞.  On the extended reals an entry whose
  absolute value is below +∞ is neither +∞ nor −∞, hence an ordinary real number.  This module extracts that fact for
  the four arrays the attention scores are built from: the joint features, the confounders, and the query and key
  weights.
-/
import proofs.«168509_j81982335746417_2_alg».proof.Pre_finite_inputs
import proofs.«168509_j81982335746417_2_alg».proof.Proof.Consts
import Idealize.ShloMosaic.Lib.ReduceAll
import Idealize.ShloMosaic.Lib.ValueIdx
import Idealize.ShloMosaic.PureOps.Ideal.Laws

noncomputable section

namespace Cert.Attn.Finite

open Cert.Pre_finite_inputs Idealize.ShloMosaic

/-- The rank-zero shape has exactly one index. -/
local instance subsingleton_scalarIdx : Subsingleton S_.Idx := ⟨fun a b => funext fun d => d.elim0⟩

/-- An extended real whose absolute value max x (−x) lies strictly below +∞ is a real number: at +∞ and at −∞ the
    absolute value is +∞ itself. -/
theorem real_of_abs_lt_top (x : EReal) (h : max x (-x) < ⊤) : ∃ r : ℝ, x = (r : EReal) := by
  induction x using EReal.rec with
  | bot => simp at h
  | top => simp at h
  | coe r => exact ⟨r, rfl⟩

/-- The strict comparison of extended reals that answers 1 holds. -/
theorem lt_of_cmp_olt (a b : EReal) (h : Ideal.cmp .olt a b = 1#1) : a < b := by
  by_contra hn
  simp [Ideal.cmp, hn] at h

/-- One test of the predicate: if the conjunction over all entries of |x| < +∞ is 1, every entry of x is a real. -/
theorem all_real {s : Shape} {axes : List (Fin s.rank)} (x : FVec Ideal s .f32)
    (hb : S_.BroadcastsInDim s (![] : Fin 0 → Fin s.rank)) (hr : s.ReducesTo axes S_) (hS : 0 < S_.numel)
    (e : Host.reduce IntOp.andi (cmpf .olt (Host.absf x) (broadcastInDim s ![] hb (constant S_ .f32 0x7F800000#32)))
          (constantI S_ 1 1#1) hr hS ValueIdx.ix0 = 1#1) :
    ∀ i, ∃ r : ℝ, x i = (r : EReal) := by
  intro i
  have hi := Host.reduce_andi_all _ _ hr hS ValueIdx.ix0 e i
  have hlt : max (x i) (-(x i)) < Ideal.ofBits .f32 0x7F800000#32 := lt_of_cmp_olt _ _ hi
  rw [Cert.Attn.Consts.ofBits_posInf] at hlt
  exact real_of_abs_lt_top _ hlt

theorem args_real [hPre : Cert.Pre_finite_inputs.Facts]
    (a0 : FVec Ideal S8192x1x1024 .f32) (a1 : FVec Ideal S2048x1024 .f32) (a2 : FVec Ideal S2048x1 .f32)
    (a3 a4 a5 : FVec Ideal S1024x1024 .f32) (a6 a7 a8 a9 : FVec Ideal S1024 .f32)
    (h : Cert.Pre_finite_inputs.fn (F := Ideal) a0 a1 a2 a3 a4 a5 a6 a7 a8 a9 = (fun _ => 1#1)) :
    (∀ i, ∃ r : ℝ, a0 i = (r : EReal)) ∧ (∀ i, ∃ r : ℝ, a1 i = (r : EReal)) ∧
      (∀ i, ∃ r : ℝ, a3 i = (r : EReal)) ∧ (∀ i, ∃ r : ℝ, a4 i = (r : EReal)) := by
  have h0 := congrFun h ValueIdx.ix0
  dsimp only [fn, fn_part1, fn_part2, andi] at h0
  -- the ten tests are nested to the left: peel the last five, then read the fifth, fourth, second and first
  obtain ⟨h43, -⟩ := IntOp.andi_eq_one.1 h0
  obtain ⟨h38, -⟩ := IntOp.andi_eq_one.1 h43
  obtain ⟨h33, -⟩ := IntOp.andi_eq_one.1 h38
  obtain ⟨h28, -⟩ := IntOp.andi_eq_one.1 h33
  obtain ⟨h23, -⟩ := IntOp.andi_eq_one.1 h28
  obtain ⟨h18, t4⟩ := IntOp.andi_eq_one.1 h23
  obtain ⟨h13, t3⟩ := IntOp.andi_eq_one.1 h18
  obtain ⟨h8, -⟩ := IntOp.andi_eq_one.1 h13
  obtain ⟨t0, t1⟩ := IntOp.andi_eq_one.1 h8
  exact ⟨all_real a0 _ _ _ t0, all_real a1 _ _ _ t1, all_real a3 _ _ _ t3, all_real a4 _ _ _ t4⟩

end Cert.Attn.Finite

end
-- ==== Proof.lean ====
/-
  The proof of the certificate's claim: the three frames, the idealization (nothing was rewritten, so there is nothing
  to state), and the equivalence of the idealized kernel and the idealized reference on the extended reals.

  The layer is a gated mix of an affine map of the joint features and of an attention read-out over a dictionary of
  confounders, layer-normalised.  Both programs compute, row by row, the same function of the arguments (Proof/Spec.lean)
  except at two steps: the kernel scales the attention scores by the product with 1/32 where the reference divides by
  √1024, and the kernel normalises the softmax by the product with the reciprocal of the row's sum of exponentials where
  the reference divides by the sum.  The first pair agrees on every extended real; the second agrees off a zero sum, and
  the sum is positive as soon as the scores are real numbers, which the finiteness precondition gives (Proof/Algebra.lean,
  Proof/Finite.lean).  The kernel's side is read off its run through the two calls and the host operations around them
  (Proof/RunNamed.lean, Proof/HostSide.lean, Proof/Arrays.lean, Proof/Body1.lean, Proof/KernelValue.lean); the
  reference's side off its run one operation at a time (Proof/RefValue.lean).
-/
import proofs.«168509_j81982335746417_2_alg».proof.Defs
import proofs.«168509_j81982335746417_2_alg».proof.Proof.Gen.Kernel
import proofs.«168509_j81982335746417_2_alg».proof.Proof.Gen.Kernel.Skeleton
import proofs.«168509_j81982335746417_2_alg».proof.Proof.Gen.Kernel.Launch
import proofs.«168509_j81982335746417_2_alg».proof.Proof.Gen.Kernel.Points
import proofs.«168509_j81982335746417_2_alg».proof.Proof.Gen.Kernel.Frame
import proofs.«168509_j81982335746417_2_alg».proof.Proof.Gen.KernelIdeal
import proofs.«168509_j81982335746417_2_alg».proof.Proof.Gen.KernelIdeal.Skeleton
import proofs.«168509_j81982335746417_2_alg».proof.Proof.Gen.KernelIdeal.Launch
import proofs.«168509_j81982335746417_2_alg».proof.Proof.Gen.KernelIdeal.Points
import proofs.«168509_j81982335746417_2_alg».proof.Proof.Gen.KernelIdeal.Frame
import proofs.«168509_j81982335746417_2_alg».proof.Proof.Gen.ReferenceIdeal
import proofs.«168509_j81982335746417_2_alg».proof.Proof.Gen.Pre_finite_inputs
import proofs.«168509_j81982335746417_2_alg».proof.Proof.Gen.ReferenceIdeal.Run
import proofs.«168509_j81982335746417_2_alg».proof.Proof.Gen.ReferenceIdeal.Read
import proofs.«168509_j81982335746417_2_alg».proof.Proof.Spec
import proofs.«168509_j81982335746417_2_alg».proof.Proof.Algebra
import proofs.«168509_j81982335746417_2_alg».proof.Proof.RunNamed
import proofs.«168509_j81982335746417_2_alg».proof.Proof.KernelValue
import proofs.«168509_j81982335746417_2_alg».proof.Proof.RefValue
import proofs.«168509_j81982335746417_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the exact extended reals the kernel's result array ends at the layer in the kernel's spelling (its run, read
    through the two calls and the host operations around them) and the reference's at the layer in its own spelling
    (its generated run, read one operation at a time), of arguments that agree; the finiteness precondition makes the
    joint features, the confounders and the query and key weights real, and there the two spellings are one function. -/
theorem algebraic : Cert.algebraic_KernelIdeal_ReferenceIdeal := by
  intro m ρ m' ρ' hpre hagree
  refine ⟨fun c => Cert.KernelIdeal.Gen.W4 (F := Ideal) m ρ c (Proc.devRef .tc Cert.KernelIdeal.main_v13),
    Cert.Attn.Run.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h3, h4⟩ := Cert.Attn.Finite.args_real _ _ _ _ _ _ _ _ _ _ (hpre c)
  rw [Cert.ReferenceIdeal.Read.val_main_v68_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  funext i
  rw [Cert.Attn.Ref.ref_value]
  exact ((Cert.Attn.Run.kernel_value m ρ c i).trans (Cert.Attn.result_eq _ _ _ _ _ _ _ _ _ _ h0 h1 h3 h4 _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
